-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x10 : Shape := ⟨2, ![524288, 10]⟩
abbrev S128x10 : Shape := ⟨2, ![128, 10]⟩
abbrev S128 : Shape := ⟨1, ![128]⟩
abbrev S32x128 : Shape := ⟨2, ![32, 128]⟩
abbrev S32 : Shape := ⟨1, ![32]⟩
abbrev S2x32 : Shape := ⟨2, ![2, 32]⟩
abbrev S2 : Shape := ⟨1, ![2]⟩
abbrev S1x32 : Shape := ⟨2, ![1, 32]⟩
abbrev S1 : Shape := ⟨1, ![1]⟩
abbrev S_ : Shape := ⟨0, ![]⟩

class Facts : Prop where
  bcast_S_S524288x10 : S_.BroadcastsInDim S524288x10 (![] : Fin 0 → Fin S524288x10.rank)
  reducesTo_S524288x10_S_d0_1 : S524288x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S2x32 .f32) (main_arg8 : FVec F S2 .f32) (main_arg9 : FVec F S1x32 .f32) (main_arg10 : FVec F S1 .f32) (main_v33 : IVec S_ 1) : IVec S_ 1 :=
  let main_v34 : FVec F S2x32 .f32 := Host.absf main_arg7
  let main_cst_12 : FVec F S_ .f32 := constant S_ .f32 0x7F800000#32
  let main_v35 : FVec F S2x32 .f32 := broadcastInDim S2x32 ![] bcast_S_S2x32 main_cst_12
  let main_v36 : IVec S2x32 1 := cmpf .olt main_v34 main_v35
  let main_c_13 : IVec S_ 1 := constantI S_ 1 1#1
  let main_v37 : IVec S_ 1 := (fun x v => Host.reduce IntOp.andi x v reducesTo_S2x32_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S32 .f32) (main_arg5 : FVec F S32x128 .f32) (main_arg6 : FVec F S32 .f32) (main_arg7 : FVec F S2x32 .f32) (main_arg8 : FVec F S2 .f32) (main_arg9 : FVec F S1x32 .f32) (main_arg10 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S524288x10 .f32) (main_arg1 : FVec F S128x10 .f32) (main_arg2 : FVec F S128 .f32) (main_arg3 : FVec F S32x128 .f32) (main_arg4 : FVec F S32 .f32) (main_arg5 : FVec F S32x128 .f32) (main_arg6 : FVec F S32 .f32) (main_arg7 : FVec F S2x32 .f32) (main_arg8 : FVec F S2 .f32) (main_arg9 : FVec F S1x32 .f32) (main_arg10 : FVec F S1 .f32) : IVec S_ 1 :=
  let main_v0 : FVec F S524288x10 .f32 := Host.absf main_arg0
  let main_cst : FVec F S_ .f32 := constant S_ .f32 0x7F800000#32
  let main_v1 : FVec F S524288x10 .f32 := broadcastInDim S524288x10 ![] bcast_S_S524288x10 main_cst
  let main_v2 : IVec S524288x10 1 := cmpf .olt main_v0 main_v1
  let main_c : IVec S_ 1 := constantI S_ 1 1#1
  let main_v3 : IVec S_ 1 := (fun x v => Host.reduce IntOp.andi x v reducesTo_S524288x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_arg7 main_arg8 main_arg9 main_arg10 main_v13 main_v16
-- ==== Kernel.lean ====
abbrev S524288x10 : Shape := ⟨2, ![524288, 10]⟩
abbrev S128x10 : Shape := ⟨2, ![128, 10]⟩
abbrev S128 : Shape := ⟨1, ![128]⟩
abbrev S32x128 : Shape := ⟨2, ![32, 128]⟩
abbrev S32 : Shape := ⟨1, ![32]⟩
abbrev S2x32 : Shape := ⟨2, ![2, 32]⟩
abbrev S2 : Shape := ⟨1, ![2]⟩
abbrev S1x32 : Shape := ⟨2, ![1, 32]⟩
abbrev S1 : Shape := ⟨1, ![1]⟩
abbrev S10x524288 : Shape := ⟨2, ![10, 524288]⟩
abbrev S128x1 : Shape := ⟨2, ![128, 1]⟩
abbrev S32x1 : Shape := ⟨2, ![32, 1]⟩
abbrev S2x1 : Shape := ⟨2, ![2, 1]⟩
abbrev S1x1 : Shape := ⟨2, ![1, 1]⟩
abbrev S2x524288 : Shape := ⟨2, ![2, 524288]⟩
abbrev S10x8192 : Shape := ⟨2, ![10, 8192]⟩
abbrev S2x8192 : Shape := ⟨2, ![2, 8192]⟩
abbrev S128x8192 : Shape := ⟨2, ![128, 8192]⟩
abbrev S32x8192 : Shape := ⟨2, ![32, 8192]⟩
abbrev S1x8192 : Shape := ⟨2, ![1, 8192]⟩
abbrev S524288x2 : Shape := ⟨2, ![524288, 2]⟩

abbrev nBuf : Space → Nat
  | .hbm => 19
  | .vmem => 14
  | .smem => 0
  | _ => 0

abbrev bufTy : (tb : Table) → Fin (tcTables nBuf tb) → BufTy
  | .hbm, ⟨0, _⟩ => ⟨S524288x10, .f32⟩
  | .hbm, ⟨1, _⟩ => ⟨S128x10, .f32⟩
  | .hbm, ⟨2, _⟩ => ⟨S128, .f32⟩
  | .hbm, ⟨3, _⟩ => ⟨S32x128, .f32⟩
  | .hbm, ⟨4, _⟩ => ⟨S32, .f32⟩
  | .hbm, ⟨5, _⟩ => ⟨S32x128, .f32⟩
  | .hbm, ⟨6, _⟩ => ⟨S32, .f32⟩
  | .hbm, ⟨7, _⟩ => ⟨S2x32, .f32⟩
  | .hbm, ⟨8, _⟩ => ⟨S2, .f32⟩
  | .hbm, ⟨9, _⟩ => ⟨S1x32, .f32⟩
  | .hbm, ⟨10, _⟩ => ⟨S1, .f32⟩
  | .hbm, ⟨11, _⟩ => ⟨S10x524288, .f32⟩
  | .hbm, ⟨12, _⟩ => ⟨S128x1, .f32⟩
  | .hbm, ⟨13, _⟩ => ⟨S32x1, .f32⟩
  | .hbm, ⟨14, _⟩ => ⟨S32x1, .f32⟩
  | .hbm, ⟨15, _⟩ => ⟨S2x1, .f32⟩
  | .hbm, ⟨16, _⟩ => ⟨S1x1, .f32⟩
  | .hbm, ⟨17, _⟩ => ⟨S2x524288, .f32⟩
  | .hbm, ⟨18, _⟩ => ⟨S524288x2, .f32⟩
  | .local _ .vmem, ⟨0, _⟩ => ⟨S10x8192, .f32⟩
  | .local _ .vmem, ⟨1, _⟩ => ⟨S10x8192, .f32⟩
  | .local _ .vmem, ⟨2, _⟩ => ⟨S128x10, .f32⟩
  | .local _ .vmem, ⟨3, _⟩ => ⟨S128x1, .f32⟩
  | .local _ .vmem, ⟨4, _⟩ => ⟨S32x128, .f32⟩
  | .local _ .vmem, ⟨5, _⟩ => ⟨S32x1, .f32⟩
  | .local _ .vmem, ⟨6, _⟩ => ⟨S32x128, .f32⟩
  | .local _ .vmem, ⟨7, _⟩ => ⟨S32x1, .f32⟩
  | .local _ .vmem, ⟨8, _⟩ => ⟨S2x32, .f32⟩
  | .local _ .vmem, ⟨9, _⟩ => ⟨S2x1, .f32⟩
  | .local _ .vmem, ⟨10, _⟩ => ⟨S1x32, .f32⟩
  | .local _ .vmem, ⟨11, _⟩ => ⟨S1x1, .f32⟩
  | .local _ .vmem, ⟨12, _⟩ => ⟨S2x8192, .f32⟩
  | .local _ .vmem, ⟨13, _⟩ => ⟨S2x8192, .f32⟩
  | _, _ => ⟨S524288x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S524288x10_S10x524288_1_0 : S524288x10.Transposes [1, 0] S10x524288
  shapeCasts_S128_S128x1 : S128.ShapeCasts S128x1
  shapeCasts_S32_S32x1 : S32.ShapeCasts S32x1
  shapeCasts_S2_S2x1 : S2.ShapeCasts S2x1
  shapeCasts_S1_S1x1 : S1.ShapeCasts S1x1
  inb_S10x8192_S10x8192_0_0 : ∀ a, (![0, 0] : Fin 2 → Nat) a + S10x8192.size a ≤ S10x8192.size a
  h_S10x8192 : 0 < S10x8192.numel
  shapeCasts_S10x8192_S10x8192 : S10x8192.ShapeCasts S10x8192
  bitsLt_bf16_f32 : FTy.bits .bf16 < FTy.bits .f32
  inb_S128x10_S128x10_0_0 : ∀ a, (![0, 0] : Fin 2 → Nat) a + S128x10.size a ≤ S128x10.size a
  h_S128x10 : 0 < S128x10.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x8192 : S32x1.Broadcasts S32x8192
  inb_S2x32_S2x32_0_0 : ∀ a, (![0, 0] : Fin 2 → Nat) a + S2x32.size a ≤ S2x32.size a
  h_S2x32 : 0 < S2x32.numel
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x8192 : S2x1.Broadcasts S2x8192
  inb_S1x32_S1x32_0_0 : ∀ a, (![0, 0] : Fin 2 → Nat) a + S1x32.size a ≤ S1x32.size a
  h_S1x32 : 0 < S1x32.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  slices_S10x8192_o6_0_S1x8192 : S10x8192.Slices ![6, 0] S1x8192
  slices_S10x8192_o7_0_S1x8192 : S10x8192.Slices ![7, 0] S1x8192
  slices_S10x8192_o8_0_S1x8192 : S10x8192.Slices ![8, 0] S1x8192
  slices_S10x8192_o9_0_S1x8192 : S10x8192.Slices ![9, 0] S1x8192
  slices_S2x8192_o0_0_S1x8192 : S2x8192.Slices ![0, 0] S1x8192
  slices_S2x8192_o1_0_S1x8192 : S2x8192.Slices ![1, 0] S1x8192
  inb_S2x8192_S1x8192_0_0 : ∀ a, (![0, 0] : Fin 2 → Nat) a + S1x8192.size a ≤ S2x8192.size a
  h_S1x8192 : 0 < S1x8192.numel
  inb_S2x8192_S1x8192_1_0 : ∀ a, (![1, 0] : Fin 2 → Nat) a + S1x8192.size a ≤ S2x8192.size a
  transposes_S2x524288_S524288x2_1_0 : S2x524288.Transposes [1, 0] S524288x2
  dot_S128x10_S10x8192_S128x8192_1_0_0_1_n_n_wf : DotDims.WF S128x10 S10x8192 S128x8192 [1] [0] [0] [1] [] []
  dot_S32x128_S128x8192_S32x8192_1_0_0_1_n_n_wf : DotDims.WF S32x128 S128x8192 S32x8192 [1] [0] [0] [1] [] []
  dot_S2x32_S32x8192_S2x8192_1_0_0_1_n_n_wf : DotDims.WF S2x32 S32x8192 S2x8192 [1] [0] [0] [1] [] []
  dot_S1x32_S32x8192_S1x8192_1_0_0_1_n_n_wf : DotDims.WF S1x32 S32x8192 S1x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x8192.size a ≤ S10x524288.size a
  hwx0_0 : ∀ i : grid0.Coords, EltTy.bits .f32 = 32 ∨ (Rect.block (s := S10x524288) S10x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10.size a ≤ S128x10.size a
  hwx0_1 : ∀ i : grid0.Coords, EltTy.bits .f32 = 32 ∨ (Rect.block (s := S128x10) S128x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x32.size a ≤ S2x32.size a
  hwx0_7 : ∀ i : grid0.Coords, EltTy.bits .f32 = 32 ∨ (Rect.block (s := S2x32) S2x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x1.size a ≤ S2x1.size a
  hwx0_8 : ∀ i : grid0.Coords, EltTy.bits .f32 = 32 ∨ (Rect.block (s := S2x1) S2x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x8192.size a ≤ S2x524288.size a
  hwx0_11 : ∀ i : grid0.Coords, EltTy.bits .f32 = 32 ∨ (Rect.block (s := S2x524288) S2x8192.size (cc0_transform_11 i) (hinb0_11 i)).WholeWords (EltTy.packing .f32)

variable [Facts₀]

def dot_S128x10_S10x8192_S128x8192_1_0_0_1_n_n : DotDims S128x10 S10x8192 S128x8192 where
  lhsContracting := [1]
  rhsContracting := [0]
  lhsNonContracting := [0]
  rhsNonContracting := [1]
  lhsBatch := []
  rhsBatch := []
  wf := dot_S128x10_S10x8192_S128x8192_1_0_0_1_n_n_wf
def dot_S32x128_S128x8192_S32x8192_1_0_0_1_n_n : DotDims S32x128 S128x8192 S32x8192 where
  lhsContracting := [1]
  rhsContracting := [0]
  lhsNonContracting := [0]
  rhsNonContracting := [1]
  lhsBatch := []
  rhsBatch := []
  wf := dot_S32x128_S128x8192_S32x8192_1_0_0_1_n_n_wf
def dot_S2x32_S32x8192_S2x8192_1_0_0_1_n_n : DotDims S2x32 S32x8192 S2x8192 where
  lhsContracting := [1]
  rhsContracting := [0]
  lhsNonContracting := [0]
  rhsNonContracting := [1]
  lhsBatch := []
  rhsBatch := []
  wf := dot_S2x32_S32x8192_S2x8192_1_0_0_1_n_n_wf
def dot_S1x32_S32x8192_S1x8192_1_0_0_1_n_n : DotDims S1x32 S32x8192 S1x8192 where
  lhsContracting := [1]
  rhsContracting := [0]
  lhsNonContracting := [0]
  rhsNonContracting := [1]
  lhsBatch := []
  rhsBatch := []
  wf := dot_S1x32_S32x8192_S1x8192_1_0_0_1_n_n_wf

abbrev win0_0 : Pipeline.Window sig grid0 :=
  Pipeline.Window.ofSpec (Memref.whole main_v0) S10x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S2x8192.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288x10 : Shape := ⟨2, ![524288, 10]⟩
abbrev S128x10 : Shape := ⟨2, ![128, 10]⟩
abbrev S128 : Shape := ⟨1, ![128]⟩
abbrev S32x128 : Shape := ⟨2, ![32, 128]⟩
abbrev S32 : Shape := ⟨1, ![32]⟩
abbrev S2x32 : Shape := ⟨2, ![2, 32]⟩
abbrev S2 : Shape := ⟨1, ![2]⟩
abbrev S1x32 : Shape := ⟨2, ![1, 32]⟩
abbrev S1 : Shape := ⟨1, ![1]⟩
abbrev S10x128 : Shape := ⟨2, ![10, 128]⟩
abbrev S524288x128 : Shape := ⟨2, ![524288, 128]⟩
abbrev S1x128 : Shape := ⟨2, ![1, 128]⟩
abbrev S_ : Shape := ⟨0, ![]⟩
abbrev S128x32 : Shape := ⟨2, ![128, 32]⟩
abbrev S524288x32 : Shape := ⟨2, ![524288, 32]⟩
abbrev S32x2 : Shape := ⟨2, ![32, 2]⟩
abbrev S524288x2 : Shape := ⟨2, ![524288, 2]⟩
abbrev S1x2 : Shape := ⟨2, ![1, 2]⟩
abbrev S32x1 : Shape := ⟨2, ![32, 1]⟩
abbrev S524288x1 : Shape := ⟨2, ![524288, 1]⟩
abbrev S1x1 : Shape := ⟨2, ![1, 1]⟩
abbrev S524288 : Shape := ⟨1, ![524288]⟩

abbrev nBuf : Space → Nat
  | .hbm => 131
  | .vmem => 0
  | .smem => 0
  | _ => 0

abbrev hbmTy0_0 (i : Nat) : BufTy := match i % 128 with
  | 0 => ⟨S524288x10, .f32⟩
  | 1 => ⟨S128x10, .f32⟩
  | 2 => ⟨S128, .f32⟩
  | 3 => ⟨S32x128, .f32⟩
  | 4 => ⟨S32, .f32⟩
  | 5 => ⟨S32x128, .f32⟩
  | 6 => ⟨S32, .f32⟩
  | 7 => ⟨S2x32, .f32⟩
  | 8 => ⟨S2, .f32⟩
  | 9 => ⟨S1x32, .f32⟩
  | 10 => ⟨S1, .f32⟩
  | 11 => ⟨S10x128, .f32⟩
  | 12 => ⟨S524288x128, .f32⟩
  | 13 => ⟨S1x128, .f32⟩
  | 14 => ⟨S524288x128, .f32⟩
  | 15 => ⟨S524288x128, .f32⟩
  | 16 => ⟨S524288x128, .f32⟩
  | 17 => ⟨S524288x128, .f32⟩
  | 18 => ⟨S_, .f32⟩
  | 19 => ⟨S524288x128, .f32⟩
  | 20 => ⟨S524288x128, .f32⟩
  | 21 => ⟨S_, .f32⟩
  | 22 => ⟨S524288x128, .f32⟩
  | 23 => ⟨S524288x128, .f32⟩
  | 24 => ⟨S524288x128, .f32⟩
  | 25 => ⟨S128x32, .f32⟩
  | 26 => ⟨S524288x32, .f32⟩
  | 27 => ⟨S1x32, .f32⟩
  | 28 => ⟨S524288x32, .f32⟩
  | 29 => ⟨S524288x32, .f32⟩
  | 30 => ⟨S524288x32, .f32⟩
  | 31 => ⟨S524288x32, .f32⟩
  | 32 => ⟨S_, .f32⟩
  | 33 => ⟨S524288x32, .f32⟩
  | 34 => ⟨S524288x32, .f32⟩
  | 35 => ⟨S_, .f32⟩
  | 36 => ⟨S524288x32, .f32⟩
  | 37 => ⟨S524288x32, .f32⟩
  | 38 => ⟨S524288x32, .f32⟩
  | 39 => ⟨S128x32, .f32⟩
  | 40 => ⟨S524288x32, .f32⟩
  | 41 => ⟨S1x32, .f32⟩
  | 42 => ⟨S524288x32, .f32⟩
  | 43 => ⟨S524288x32, .f32⟩
  | 44 => ⟨S524288x32, .f32⟩
  | 45 => ⟨S524288x32, .f32⟩
  | 46 => ⟨S_, .f32⟩
  | 47 => ⟨S524288x32, .f32⟩
  | 48 => ⟨S524288x32, .f32⟩
  | 49 => ⟨S_, .f32⟩
  | 50 => ⟨S524288x32, .f32⟩
  | 51 => ⟨S524288x32, .f32⟩
  | 52 => ⟨S524288x32, .f32⟩
  | 53 => ⟨S32x2, .f32⟩
  | 54 => ⟨S524288x2, .f32⟩
  | 55 => ⟨S1x2, .f32⟩
  | 56 => ⟨S524288x2, .f32⟩
  | 57 => ⟨S524288x2, .f32⟩
  | 58 => ⟨S32x1, .f32⟩
  | 59 => ⟨S524288x1, .f32⟩
  | 60 => ⟨S1x1, .f32⟩
  | 61 => ⟨S524288x1, .f32⟩
  | 62 => ⟨S524288x1, .f32⟩
  | 63 => ⟨S524288, .f32⟩
  | 64 => ⟨S524288, .f32⟩
  | 65 => ⟨S524288, .f32⟩
  | 66 => ⟨S_, .f32⟩
  | 67 => ⟨S524288, .f32⟩
  | 68 => ⟨S524288, .f32⟩
  | 69 => ⟨S_, .f32⟩
  | 70 => ⟨S524288, .f32⟩
  | 71 => ⟨S524288, .f32⟩
  | 72 => ⟨S_, .f32⟩
  | 73 => ⟨S524288, .f32⟩
  | 74 => ⟨S524288, .f32⟩
  | 75 => ⟨S524288x1, .f32⟩
  | 76 => ⟨S524288, .f32⟩
  | 77 => ⟨S524288x1, .f32⟩
  | 78 => ⟨S524288, .f32⟩
  | 79 => ⟨S524288x1, .f32⟩
  | 80 => ⟨S524288, .f32⟩
  | 81 => ⟨S524288x1, .f32⟩
  | 82 => ⟨S524288, .f32⟩
  | 83 => ⟨S524288, .f32⟩
  | 84 => ⟨S524288, .f32⟩
  | 85 => ⟨S524288, .f32⟩
  | 86 => ⟨S_, .f32⟩
  | 87 => ⟨S524288, .f32⟩
  | 88 => ⟨S524288, .f32⟩
  | 89 => ⟨S524288, .f32⟩
  | 90 => ⟨S524288, .f32⟩
  | 91 => ⟨S524288, .f32⟩
  | 92 => ⟨S_, .f32⟩
  | 93 => ⟨S524288, .f32⟩
  | 94 => ⟨S524288, .f32⟩
  | 95 => ⟨S_, .f32⟩
  | 96 => ⟨S524288, .f32⟩
  | 97 => ⟨S524288, .f32⟩
  | 98 => ⟨S_, .f32⟩
  | 99 => ⟨S524288, .f32⟩
  | 100 => ⟨S524288, .f32⟩
  | 101 => ⟨S524288x1, .f32⟩
  | 102 => ⟨S524288x1, .f32⟩
  | 103 => ⟨S524288x2, .f32⟩
  | 104 => ⟨S524288, .f32⟩
  | 105 => ⟨S524288, .f32⟩
  | 106 => ⟨S524288x2, .f32⟩
  | 107 => ⟨S_, .f32⟩
  | 108 => ⟨S524288, .f32⟩
  | 109 => ⟨S524288x2, .f32⟩
  | 110 => ⟨S_, .f32⟩
  | 111 => ⟨S524288, .f32⟩
  | 112 => ⟨S524288, .f32⟩
  | 113 => ⟨S_, .f32⟩
  | 114 => ⟨S524288, .f32⟩
  | 115 => ⟨S524288, .i1⟩
  | 116 => ⟨S_, .f32⟩
  | 117 => ⟨S524288, .f32⟩
  | 118 => ⟨S524288, .f32⟩
  | 119 => ⟨S_, .f32⟩
  | 120 => ⟨S524288, .f32⟩
  | 121 => ⟨S524288, .f32⟩
  | 122 => ⟨S524288, .f32⟩
  | 123 => ⟨S_, .f32⟩
  | 124 => ⟨S_, .f32⟩
  | 125 => ⟨S524288, .f32⟩
  | 126 => ⟨S524288, .f32⟩
  | 127 => ⟨S524288x1, .f32⟩
  | _ => ⟨S524288x10, .f32⟩

abbrev hbmTy0_1 (i : Nat) : BufTy := match i % 128 with
  | 0 => ⟨S524288x2, .f32⟩
  | 1 => ⟨S524288x2, .f32⟩
  | 2 => ⟨S524288x2, .f32⟩
  | _ => ⟨S524288x10, .f32⟩

abbrev hbmTy (i : Nat) : BufTy := match i / 128 with
  | 0 => hbmTy0_0 i
  | 1 => hbmTy0_1 i
  | _ => ⟨S524288x10, .f32⟩

abbrev bufTy : (tb : Table) → Fin (tcTables nBuf tb) → BufTy
  | .hbm, ⟨i, _⟩ => hbmTy i
  | _, _ => ⟨S524288x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst : Ref sig .tc := ⟨.hbm, 66, rfl⟩
abbrev main_v31 : Ref sig .tc := ⟨.hbm, 67, rfl⟩
abbrev main_v32 : Ref sig .tc := ⟨.hbm, 68, rfl⟩
abbrev main_cst_0 : Ref sig .tc := ⟨.hbm, 69, rfl⟩
abbrev main_v33 : Ref sig .tc := ⟨.hbm, 70, rfl⟩
abbrev main_v34 : Ref sig .tc := ⟨.hbm, 71, rfl⟩
abbrev main_cst_1 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_2 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_3 : Ref sig .tc := ⟨.hbm, 92, rfl⟩
abbrev main_v53 : Ref sig .tc := ⟨.hbm, 93, rfl⟩
abbrev main_v54 : Ref sig .tc := ⟨.hbm, 94, rfl⟩
abbrev main_cst_4 : Ref sig .tc := ⟨.hbm, 95, rfl⟩
abbrev main_v55 : Ref sig .tc := ⟨.hbm, 96, rfl⟩
abbrev main_v56 : Ref sig .tc := ⟨.hbm, 97, rfl⟩
abbrev main_cst_5 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_6 : Ref sig .tc := ⟨.hbm, 107, rfl⟩
abbrev main_v65 : Ref sig .tc := ⟨.hbm, 108, rfl⟩
abbrev main_v66 : Ref sig .tc := ⟨.hbm, 109, rfl⟩
abbrev main_cst_7 : Ref sig .tc := ⟨.hbm, 110, rfl⟩
abbrev main_v67 : Ref sig .tc := ⟨.hbm, 111, rfl⟩
abbrev main_v68 : Ref sig .tc := ⟨.hbm, 112, rfl⟩
abbrev main_cst_8 : Ref sig .tc := ⟨.hbm, 113, rfl⟩
abbrev main_v69 : Ref sig .tc := ⟨.hbm, 114, rfl⟩
abbrev main_v70 : Ref sig .tc := ⟨.hbm, 115, rfl⟩
abbrev main_call3_cst : Ref sig .tc := ⟨.hbm, 116, rfl⟩
abbrev main_call3_v0 : Ref sig .tc := ⟨.hbm, 117, rfl⟩
abbrev main_v71 : Ref sig .tc := ⟨.hbm, 118, rfl⟩
abbrev main_cst_9 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_10 : Ref sig .tc := ⟨.hbm, 123, rfl⟩
abbrev main_call4_v0 : Ref sig .tc := ⟨.hbm, 124, rfl⟩
abbrev main_call4_v1 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩

abbrev nD : Nat := 1
abbrev τ : Topo := Topo.v7x

variable {F : FTy → Type} [FloatOps F]

class Facts₀ : Prop where
  transposes_S128x10_S10x128_1_0 : S128x10.Transposes [1, 0] S10x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S32x128_S128x32_1_0 : S32x128.Transposes [1, 0] S128x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  transposes_S2x32_S32x2_1_0 : S2x32.Transposes [1, 0] S32x2
  bcast_S2_S1x2_1 : S2.BroadcastsInDim S1x2 (![1] : Fin 1 → Fin S1x2.rank)
  bcast_S1x2_S524288x2_0_1 : S1x2.BroadcastsInDim S524288x2 (![0, 1] : Fin 2 → Fin S524288x2.rank)
  transposes_S1x32_S32x1_1_0 : S1x32.Transposes [1, 0] S32x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  bcast_S_S524288 : S_.BroadcastsInDim S524288 (![] : Fin 0 → Fin S524288.rank)
  slices_S524288x10_S524288x1_0_6 : S524288x10.Slices ![0, 6] S524288x1
  slices_S524288x10_S524288x1_0_7 : S524288x10.Slices ![0, 7] S524288x1
  slices_S524288x10_S524288x1_0_8 : S524288x10.Slices ![0, 8] S524288x1
  slices_S524288x10_S524288x1_0_9 : S524288x10.Slices ![0, 9] S524288x1
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S524288x2_S524288_d1 : S524288x2.ReducesTo [1] S524288
  h_S_ : 0 < S_.numel
  bcast_S524288x1_S524288x2_0_1 : S524288x1.BroadcastsInDim S524288x2 (![0, 1] : Fin 2 → Fin S524288x2.rank)
  dot_S524288x10_S10x128_S524288x128_1_0_0_1_n_n_wf : DotDims.WF S524288x10 S10x128 S524288x128 [1] [0] [0] [1] [] []
  dot_S524288x128_S128x32_S524288x32_1_0_0_1_n_n_wf : DotDims.WF S524288x128 S128x32 S524288x32 [1] [0] [0] [1] [] []
  dot_S524288x32_S32x2_S524288x2_1_0_0_1_n_n_wf : DotDims.WF S524288x32 S32x2 S524288x2 [1] [0] [0] [1] [] []
  dot_S524288x32_S32x1_S524288x1_1_0_0_1_n_n_wf : DotDims.WF S524288x32 S32x1 S524288x1 [1] [0] [0] [1] [] []

variable [Facts₀]

def dot_S524288x10_S10x128_S524288x128_1_0_0_1_n_n : DotDims S524288x10 S10x128 S524288x128 where
  lhsContracting := [1]
  rhsContracting := [0]
  lhsNonContracting := [0]
  rhsNonContracting := [1]
  lhsBatch := []
  rhsBatch := []
  wf := dot_S524288x10_S10x128_S524288x128_1_0_0_1_n_n_wf
def dot_S524288x128_S128x32_S524288x32_1_0_0_1_n_n : DotDims S524288x128 S128x32 S524288x32 where
  lhsContracting := [1]
  rhsContracting := [0]
  lhsNonContracting := [0]
  rhsNonContracting := [1]
  lhsBatch := []
  rhsBatch := []
  wf := dot_S524288x128_S128x32_S524288x32_1_0_0_1_n_n_wf
def dot_S524288x32_S32x2_S524288x2_1_0_0_1_n_n : DotDims S524288x32 S32x2 S524288x2 where
  lhsContracting := [1]
  rhsContracting := [0]
  lhsNonContracting := [0]
  rhsNonContracting := [1]
  lhsBatch := []
  rhsBatch := []
  wf := dot_S524288x32_S32x2_S524288x2_1_0_0_1_n_n_wf
def dot_S524288x32_S32x1_S524288x1_1_0_0_1_n_n : DotDims S524288x32 S32x1 S524288x1 where
  lhsContracting := [1]
  rhsContracting := [0]
  lhsNonContracting := [0]
  rhsNonContracting := [1]
  lhsBatch := []
  rhsBatch := []
  wf := dot_S524288x32_S32x1_S524288x1_1_0_0_1_n_n_wf

class Facts : Prop extends Facts₀ where

variable [Facts]
-- ==== Proof.Spec.lean ====
/-
  What both programs compute, per sample, on the extended reals.

  A sample is one row `o` of the observation matrix (ten numbers). A shared trunk maps it to 128 hidden
  values, two heads map those to 32 values each, all three layers being an affine map followed by
  `silu z = z · σ(z)` with `σ z = 1 / (1 + e^(-z))`. The first head gives the nominal control `u ∈ ℝ²`
  (one more affine map), the second a gain `α = 4 · σ(·)`. The last four observations are a relative
  position `(o 6, o 7)` and a relative velocity `(o 8, o 9)`; with `g = -2 · (o 6, o 7)`,
  the barrier `o 6² + o 7² - r²` and `h = -2 · (o 6 · o 8 + o 7 · o 9) + α · barrier`, the result is the
  projection of `u` on the half-plane `g · u ≤ h`:  `u - λ g`,  `λ = max (g · u - h) 0 / max (g · g) ε`
  where `g · g > 0` and `0` elsewhere.

  Every operation is the exact one on the extended reals; the literals (4, r² = 0.64 as an f32 word, -2, 0,
  ε = 1e-12 as an f32 word) stay as the words both programs print.
-/
import Idealize.ShloMosaic.PureOps.Ideal
import Idealize.ShloMosaic.PureOps.Ideal.Laws
import Idealize.ShloMosaic.Lib.ValueIdx

noncomputable section

namespace Cert.BarrierQP

open Idealize.ShloMosaic Idealize.ShloMosaic.ValueIdx

/-- The f32 word of 1.0 denotes the extended real 1. -/
theorem ofBits_one_f32 : Ideal.ofBits .f32 0x3F800000#32 = 1 := by
  simp [Ideal.ofBits, Ideal.ieee]
  first
    | (rw [← EReal.coe_mul, ← EReal.coe_one]; congr 1; norm_num)
    | (norm_cast; norm_num)
    | (rw [← EReal.coe_mul]; norm_num)
    | (exact_mod_cast (by norm_num : (8388608 : ℝ) * ((2 : ℝ) ^ 23)⁻¹ = 1))

/-- The literals, as the words the programs print. -/
abbrev four : EReal := Ideal.ofBits .f32 0x40800000#32
abbrev rsq : EReal := Ideal.ofBits .f32 0x3F23D70A#32
abbrev negTwo : EReal := Ideal.ofBits .f32 0xC0000000#32
abbrev zero : EReal := Ideal.ofBits .f32 0x00000000#32
abbrev eps : EReal := Ideal.ofBits .f32 0x2B8CBCCC#32

/-- `silu z = z · σ(z)`. -/
def silu (z : EReal) : EReal := z * Ideal.logistic z

/-- One output of an affine layer: a weight row against the layer's input, plus the bias. -/
def affine {n : Nat} (w x : Fin n → EReal) (b : EReal) : EReal := (∑ k, w k * x k) + b

/-- The weights and biases, by coordinates. -/
structure Params where
  W1 : Fin 128 → Fin 10 → EReal
  b1 : Fin 128 → EReal
  W21 : Fin 32 → Fin 128 → EReal
  b21 : Fin 32 → EReal
  W22 : Fin 32 → Fin 128 → EReal
  b22 : Fin 32 → EReal
  W31 : Fin 2 → Fin 32 → EReal
  b31 : Fin 2 → EReal
  W32 : Fin 32 → EReal
  b32 : EReal

variable (P : Params) (o : Fin 10 → EReal)

/-- The shared trunk's hidden values. -/
def trunk (h : Fin 128) : EReal := silu (affine (P.W1 h) o (P.b1 h))
/-- The first head's hidden values. -/
def headU (j : Fin 32) : EReal := silu (affine (P.W21 j) (trunk P o) (P.b21 j))
/-- The second head's hidden values. -/
def headA (j : Fin 32) : EReal := silu (affine (P.W22 j) (trunk P o) (P.b22 j))
/-- The nominal control. -/
def unom (c : Fin 2) : EReal := affine (P.W31 c) (headU P o) (P.b31 c)
/-- The gain. -/
def alpha : EReal := four * Ideal.logistic (affine P.W32 (headA P o) P.b32)
/-- The barrier value of the relative position. -/
def barrier : EReal := o 6 * o 6 + o 7 * o 7 - rsq
/-- Its derivative along the relative velocity. -/
def lf : EReal := negTwo * (o 6 * o 8 + o 7 * o 9)
/-- The half-plane's offset. -/
def hval : EReal := lf o + alpha P o * barrier o
/-- The half-plane's normal, by components. -/
def gx : EReal := negTwo * o 6
def gy : EReal := negTwo * o 7
def gvec : Fin 2 → EReal := ![gx o, gy o]
/-- The normal's squared length. -/
def gg : EReal := gx o * gx o + gy o * gy o
/-- By how much the nominal control violates the constraint. -/
def viol : EReal := gx o * unom P o 0 + gy o * unom P o 1 - hval P o
/-- The multiplier. -/
def lam : EReal :=
  Scalar.select (Ideal.cmp .ogt (gg o) zero) (Ideal.div (max (viol P o) zero) (max (gg o) eps)) zero
/-- The projected control. -/
def out (c : Fin 2) : EReal := unom P o c - lam P o * gvec o c

theorem out_zero : out P o 0 = unom P o 0 - lam P o * gx o := rfl
theorem out_one : out P o 1 = unom P o 1 - lam P o * gy o := rfl

/-- The parameters read off the argument arrays: weights `[out, in]`, biases by their one coordinate. -/
def paramsOf (W1 : FVec Ideal ⟨2, ![128, 10]⟩ .f32) (b1 : FVec Ideal ⟨1, ![128]⟩ .f32)
    (W21 : FVec Ideal ⟨2, ![32, 128]⟩ .f32) (b21 : FVec Ideal ⟨1, ![32]⟩ .f32)
    (W22 : FVec Ideal ⟨2, ![32, 128]⟩ .f32) (b22 : FVec Ideal ⟨1, ![32]⟩ .f32)
    (W31 : FVec Ideal ⟨2, ![2, 32]⟩ .f32) (b31 : FVec Ideal ⟨1, ![2]⟩ .f32)
    (W32 : FVec Ideal ⟨2, ![1, 32]⟩ .f32) (b32 : FVec Ideal ⟨1, ![1]⟩ .f32) : Params where
  W1 h f := W1 (ix2 h f)
  b1 h := b1 (ix1 h)
  W21 j h := W21 (ix2 j h)
  b21 j := b21 (ix1 j)
  W22 j h := W22 (ix2 j h)
  b22 j := b22 (ix1 j)
  W31 c j := W31 (ix2 c j)
  b31 c := b31 (ix1 c)
  W32 j := W32 (ix2 (0 : Fin 1) j)
  b32 := b32 (ix1 (0 : Fin 1))

/-- Sample `b` of the observation matrix. -/
def row (obs : FVec Ideal ⟨2, ![524288, 10]⟩ .f32) (b : Fin 524288) : Fin 10 → EReal := fun f => obs (ix2 b f)

/-- THE RESULT: entry `(b, c)` is component `c` of sample `b`'s projected control. -/
def result (obs : FVec Ideal ⟨2, ![524288, 10]⟩ .f32) (P : Params) : FVec Ideal ⟨2, ![524288, 2]⟩ .f32 :=
  fun i => out P (row obs ⟨(i 0).val, (i 0).isLt⟩) ⟨(i 1).val, (i 1).isLt⟩

theorem result_ix2 (obs : FVec Ideal ⟨2, ![524288, 10]⟩ .f32) (P : Params) (b : Fin 524288) (c : Fin 2) :
    result obs P (ix2 b c) = out P (row obs b) c := rfl

end Cert.BarrierQP

end
-- ==== Proof.KernelBody.lean ====
/-
  The kernel body's arithmetic at one grid point, read entry by entry on the extended reals.

  The body sees the observations transposed: a block `x0` of shape [10, 8192] whose column `l` is one sample, the
  weights whole (`[out, in]`) and each bias as a column `[out, 1]`. Every layer is a product `W · X` of a weight with the
  [in, 8192] activations, the bias column broadcast along the lanes, and `z · σ(z)`; the projection step works on rows
  6–9 of the block. Read at row `c`, lane `l`, the two stored rows are the projected control's two components of the
  sample in column `l`, with the parameters as the body finds them in its blocks.
-/
import proofs.«110257_j12807592476726_2_alg».proof.Proof.Gen.KernelIdeal.Skeleton
import proofs.«110257_j12807592476726_2_alg».proof.Proof.Spec
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx Cert.BarrierQP

/-! ## Layout operations of the body, read at an entry -/

/-- A column [128, 1] broadcast along the lanes, read at row `h`, lane `l`: the column's entry `h`. -/
theorem bcast_col_128 (v : FVec Ideal S128x1 .f32) (hb : S128x1.Broadcasts S128x8192) (h : Fin 128) (l : Fin 8192) :
    broadcastTo S128x8192 v hb (ix2 h l) = v (ix2 h (0 : Fin 1)) :=
  broadcastTo_apply v hb (ix2 h l) (ix2 h (0 : Fin 1)) (fun a => match a with
    | ⟨0, _⟩ => by show h.val = if (128 : Nat) = 1 then 0 else h.val; rw [if_neg (by decide)]
    | ⟨1, _⟩ => by show 0 = if (1 : Nat) = 1 then 0 else l.val; rw [if_pos rfl])

/-- A column [32, 1] broadcast along the lanes, read at row `h`, lane `l`: the column's entry `h`. -/
theorem bcast_col_32 (v : FVec Ideal S32x1 .f32) (hb : S32x1.Broadcasts S32x8192) (h : Fin 32) (l : Fin 8192) :
    broadcastTo S32x8192 v hb (ix2 h l) = v (ix2 h (0 : Fin 1)) :=
  broadcastTo_apply v hb (ix2 h l) (ix2 h (0 : Fin 1)) (fun a => match a with
    | ⟨0, _⟩ => by show h.val = if (32 : Nat) = 1 then 0 else h.val; rw [if_neg (by decide)]
    | ⟨1, _⟩ => by show 0 = if (1 : Nat) = 1 then 0 else l.val; rw [if_pos rfl])

/-- A column [2, 1] broadcast along the lanes, read at row `h`, lane `l`: the column's entry `h`. -/
theorem bcast_col_2 (v : FVec Ideal S2x1 .f32) (hb : S2x1.Broadcasts S2x8192) (h : Fin 2) (l : Fin 8192) :
    broadcastTo S2x8192 v hb (ix2 h l) = v (ix2 h (0 : Fin 1)) :=
  broadcastTo_apply v hb (ix2 h l) (ix2 h (0 : Fin 1)) (fun a => match a with
    | ⟨0, _⟩ => by show h.val = if (2 : Nat) = 1 then 0 else h.val; rw [if_neg (by decide)]
    | ⟨1, _⟩ => by show 0 = if (1 : Nat) = 1 then 0 else l.val; rw [if_pos rfl])

/-- The one-entry column [1, 1] broadcast along the lanes: its entry. -/
theorem bcast_col_1 (v : FVec Ideal S1x1 .f32) (hb : S1x1.Broadcasts S1x8192) (l : Fin 8192) :
    broadcastTo S1x8192 v hb (ix2 (0 : Fin 1) l) = v (ix2 (0 : Fin 1) (0 : Fin 1)) :=
  broadcastTo_apply v hb (ix2 (0 : Fin 1) l) (ix2 (0 : Fin 1) (0 : Fin 1)) (fun a => match a with
    | ⟨0, _⟩ => by show 0 = if (1 : Nat) = 1 then 0 else 0; rw [if_pos rfl]
    | ⟨1, _⟩ => by show 0 = if (1 : Nat) = 1 then 0 else l.val; rw [if_pos rfl])

/-- Row 6 of a [10, 8192] value as a [1, 8192] slice, read at lane `l`. -/
theorem slice_10_6 (v : FVec Ideal S10x8192 .f32) (hs : S10x8192.Slices ![6, 0] S1x8192) (l : Fin 8192) :
    extractStridedSlice S1x8192 ![6, 0] v hs (ix2 (0 : Fin 1) l) = v (ix2 (6 : Fin 10) l) :=
  extractStridedSlice_apply ![6, 0] v hs (ix2 (0 : Fin 1) l) (ix2 (6 : Fin 10) l) (fun a => match a with
    | ⟨0, _⟩ => by show 6 = 6 + 0; rfl
    | ⟨1, _⟩ => by show l.val = 0 + l.val; omega)

/-- Row 7 of a [10, 8192] value as a [1, 8192] slice, read at lane `l`. -/
theorem slice_10_7 (v : FVec Ideal S10x8192 .f32) (hs : S10x8192.Slices ![7, 0] S1x8192) (l : Fin 8192) :
    extractStridedSlice S1x8192 ![7, 0] v hs (ix2 (0 : Fin 1) l) = v (ix2 (7 : Fin 10) l) :=
  extractStridedSlice_apply ![7, 0] v hs (ix2 (0 : Fin 1) l) (ix2 (7 : Fin 10) l) (fun a => match a with
    | ⟨0, _⟩ => by show 7 = 7 + 0; rfl
    | ⟨1, _⟩ => by show l.val = 0 + l.val; omega)

/-- Row 8 of a [10, 8192] value as a [1, 8192] slice, read at lane `l`. -/
theorem slice_10_8 (v : FVec Ideal S10x8192 .f32) (hs : S10x8192.Slices ![8, 0] S1x8192) (l : Fin 8192) :
    extractStridedSlice S1x8192 ![8, 0] v hs (ix2 (0 : Fin 1) l) = v (ix2 (8 : Fin 10) l) :=
  extractStridedSlice_apply ![8, 0] v hs (ix2 (0 : Fin 1) l) (ix2 (8 : Fin 10) l) (fun a => match a with
    | ⟨0, _⟩ => by show 8 = 8 + 0; rfl
    | ⟨1, _⟩ => by show l.val = 0 + l.val; omega)

/-- Row 9 of a [10, 8192] value as a [1, 8192] slice, read at lane `l`. -/
theorem slice_10_9 (v : FVec Ideal S10x8192 .f32) (hs : S10x8192.Slices ![9, 0] S1x8192) (l : Fin 8192) :
    extractStridedSlice S1x8192 ![9, 0] v hs (ix2 (0 : Fin 1) l) = v (ix2 (9 : Fin 10) l) :=
  extractStridedSlice_apply ![9, 0] v hs (ix2 (0 : Fin 1) l) (ix2 (9 : Fin 10) l) (fun a => match a with
    | ⟨0, _⟩ => by show 9 = 9 + 0; rfl
    | ⟨1, _⟩ => by show l.val = 0 + l.val; omega)

/-- Row 0 of a [2, 8192] value as a [1, 8192] slice, read at lane `l`. -/
theorem slice_2_0 (v : FVec Ideal S2x8192 .f32) (hs : S2x8192.Slices ![0, 0] S1x8192) (l : Fin 8192) :
    extractStridedSlice S1x8192 ![0, 0] v hs (ix2 (0 : Fin 1) l) = v (ix2 (0 : Fin 2) l) :=
  extractStridedSlice_apply ![0, 0] v hs (ix2 (0 : Fin 1) l) (ix2 (0 : Fin 2) l) (fun a => match a with
    | ⟨0, _⟩ => by show 0 = 0 + 0; rfl
    | ⟨1, _⟩ => by show l.val = 0 + l.val; omega)

/-- Row 1 of a [2, 8192] value as a [1, 8192] slice, read at lane `l`. -/
theorem slice_2_1 (v : FVec Ideal S2x8192 .f32) (hs : S2x8192.Slices ![1, 0] S1x8192) (l : Fin 8192) :
    extractStridedSlice S1x8192 ![1, 0] v hs (ix2 (0 : Fin 1) l) = v (ix2 (1 : Fin 2) l) :=
  extractStridedSlice_apply ![1, 0] v hs (ix2 (0 : Fin 1) l) (ix2 (1 : Fin 2) l) (fun a => match a with
    | ⟨0, _⟩ => by show 1 = 1 + 0; rfl
    | ⟨1, _⟩ => by show l.val = 0 + l.val; omega)

/-! ## The products -/

/-- A [128, 10] × [10, 8192] product into the zero accumulator, read at row `h`, lane `l`: the sum over the
    contracted axis of the products of the two operands' entries. -/
theorem matmul_128_10_apply (W : FVec Ideal S128x10 .bf16) (X : FVec Ideal S10x8192 .bf16) (h : Fin 128) (l : Fin 8192) :
    matmul dot_S128x10_S10x8192_S128x8192_1_0_0_1_n_n none W X (constant S128x8192 .f32 0x00000000#32) (ix2 h l)
      = ∑ k : Fin 10, W (ix2 h k) * X (ix2 k l) := by
  refine (Ideal.matmul_constant_zero_apply dot_S128x10_S10x8192_S128x8192_1_0_0_1_n_n none W X (ix2 h l)).trans ?_
  rw [← Equiv.sum_comp (ValueIdx.contrEquiv1 dot_S128x10_S10x8192_S128x8192_1_0_0_1_n_n 10 rfl rfl).symm]
  refine Finset.sum_congr rfl fun k _ => ?_
  have hk := ValueIdx.contrEquiv1_symm_val dot_S128x10_S10x8192_S128x8192_1_0_0_1_n_n 10 rfl rfl k
  have el : dot_S128x10_S10x8192_S128x8192_1_0_0_1_n_n.lhsIdx (ix2 h l) ((ValueIdx.contrEquiv1 dot_S128x10_S10x8192_S128x8192_1_0_0_1_n_n 10 rfl rfl).symm k) = ix2 h k :=
    funext fun a => Fin.ext (by
      match a with
      | ⟨0, _⟩ =>
        show (dot_S128x10_S10x8192_S128x8192_1_0_0_1_n_n.lhsIdx (ix2 h l) _ 0).val = h.val
        unfold DotDims.lhsIdx
        rw [dif_neg (show ¬(0 : Fin S128x10.rank) ∈ dot_S128x10_S10x8192_S128x8192_1_0_0_1_n_n.lhsBatch by decide),
          dif_pos (show (0 : Fin S128x10.rank) ∈ dot_S128x10_S10x8192_S128x8192_1_0_0_1_n_n.lhsNonContracting by decide)]
        rfl
      | ⟨1, _⟩ => exact (dot_S128x10_S10x8192_S128x8192_1_0_0_1_n_n.lhsIdx_val_of_single rfl (ix2 h l) _).trans hk)
  have er : dot_S128x10_S10x8192_S128x8192_1_0_0_1_n_n.rhsIdx (ix2 h l) ((ValueIdx.contrEquiv1 dot_S128x10_S10x8192_S128x8192_1_0_0_1_n_n 10 rfl rfl).symm k) = ix2 k l :=
    funext fun a => Fin.ext (by
      match a with
      | ⟨0, _⟩ => exact (dot_S128x10_S10x8192_S128x8192_1_0_0_1_n_n.rhsIdx_val_of_single rfl (ix2 h l) _).trans hk
      | ⟨1, _⟩ =>
        show (dot_S128x10_S10x8192_S128x8192_1_0_0_1_n_n.rhsIdx (ix2 h l) _ 1).val = l.val
        unfold DotDims.rhsIdx
        rw [dif_neg (show ¬(1 : Fin S10x8192.rank) ∈ dot_S128x10_S10x8192_S128x8192_1_0_0_1_n_n.rhsBatch by decide),
          dif_pos (show (1 : Fin S10x8192.rank) ∈ dot_S128x10_S10x8192_S128x8192_1_0_0_1_n_n.rhsNonContracting by decide)]
        rfl)
  rw [el, er]

/-- A [32, 128] × [128, 8192] product into the zero accumulator, read at row `h`, lane `l`: the sum over the
    contracted axis of the products of the two operands' entries. -/
theorem matmul_32_128_apply (W : FVec Ideal S32x128 .bf16) (X : FVec Ideal S128x8192 .bf16) (h : Fin 32) (l : Fin 8192) :
    matmul dot_S32x128_S128x8192_S32x8192_1_0_0_1_n_n none W X (constant S32x8192 .f32 0x00000000#32) (ix2 h l)
      = ∑ k : Fin 128, W (ix2 h k) * X (ix2 k l) := by
  refine (Ideal.matmul_constant_zero_apply dot_S32x128_S128x8192_S32x8192_1_0_0_1_n_n none W X (ix2 h l)).trans ?_
  rw [← Equiv.sum_comp (ValueIdx.contrEquiv1 dot_S32x128_S128x8192_S32x8192_1_0_0_1_n_n 128 rfl rfl).symm]
  refine Finset.sum_congr rfl fun k _ => ?_
  have hk := ValueIdx.contrEquiv1_symm_val dot_S32x128_S128x8192_S32x8192_1_0_0_1_n_n 128 rfl rfl k
  have el : dot_S32x128_S128x8192_S32x8192_1_0_0_1_n_n.lhsIdx (ix2 h l) ((ValueIdx.contrEquiv1 dot_S32x128_S128x8192_S32x8192_1_0_0_1_n_n 128 rfl rfl).symm k) = ix2 h k :=
    funext fun a => Fin.ext (by
      match a with
      | ⟨0, _⟩ =>
        show (dot_S32x128_S128x8192_S32x8192_1_0_0_1_n_n.lhsIdx (ix2 h l) _ 0).val = h.val
        unfold DotDims.lhsIdx
        rw [dif_neg (show ¬(0 : Fin S32x128.rank) ∈ dot_S32x128_S128x8192_S32x8192_1_0_0_1_n_n.lhsBatch by decide),
          dif_pos (show (0 : Fin S32x128.rank) ∈ dot_S32x128_S128x8192_S32x8192_1_0_0_1_n_n.lhsNonContracting by decide)]
        rfl
      | ⟨1, _⟩ => exact (dot_S32x128_S128x8192_S32x8192_1_0_0_1_n_n.lhsIdx_val_of_single rfl (ix2 h l) _).trans hk)
  have er : dot_S32x128_S128x8192_S32x8192_1_0_0_1_n_n.rhsIdx (ix2 h l) ((ValueIdx.contrEquiv1 dot_S32x128_S128x8192_S32x8192_1_0_0_1_n_n 128 rfl rfl).symm k) = ix2 k l :=
    funext fun a => Fin.ext (by
      match a with
      | ⟨0, _⟩ => exact (dot_S32x128_S128x8192_S32x8192_1_0_0_1_n_n.rhsIdx_val_of_single rfl (ix2 h l) _).trans hk
      | ⟨1, _⟩ =>
        show (dot_S32x128_S128x8192_S32x8192_1_0_0_1_n_n.rhsIdx (ix2 h l) _ 1).val = l.val
        unfold DotDims.rhsIdx
        rw [dif_neg (show ¬(1 : Fin S128x8192.rank) ∈ dot_S32x128_S128x8192_S32x8192_1_0_0_1_n_n.rhsBatch by decide),
          dif_pos (show (1 : Fin S128x8192.rank) ∈ dot_S32x128_S128x8192_S32x8192_1_0_0_1_n_n.rhsNonContracting by decide)]
        rfl)
  rw [el, er]

/-- A [2, 32] × [32, 8192] product into the zero accumulator, read at row `h`, lane `l`: the sum over the
    contracted axis of the products of the two operands' entries. -/
theorem matmul_2_32_apply (W : FVec Ideal S2x32 .bf16) (X : FVec Ideal S32x8192 .bf16) (h : Fin 2) (l : Fin 8192) :
    matmul dot_S2x32_S32x8192_S2x8192_1_0_0_1_n_n none W X (constant S2x8192 .f32 0x00000000#32) (ix2 h l)
      = ∑ k : Fin 32, W (ix2 h k) * X (ix2 k l) := by
  refine (Ideal.matmul_constant_zero_apply dot_S2x32_S32x8192_S2x8192_1_0_0_1_n_n none W X (ix2 h l)).trans ?_
  rw [← Equiv.sum_comp (ValueIdx.contrEquiv1 dot_S2x32_S32x8192_S2x8192_1_0_0_1_n_n 32 rfl rfl).symm]
  refine Finset.sum_congr rfl fun k _ => ?_
  have hk := ValueIdx.contrEquiv1_symm_val dot_S2x32_S32x8192_S2x8192_1_0_0_1_n_n 32 rfl rfl k
  have el : dot_S2x32_S32x8192_S2x8192_1_0_0_1_n_n.lhsIdx (ix2 h l) ((ValueIdx.contrEquiv1 dot_S2x32_S32x8192_S2x8192_1_0_0_1_n_n 32 rfl rfl).symm k) = ix2 h k :=
    funext fun a => Fin.ext (by
      match a with
      | ⟨0, _⟩ =>
        show (dot_S2x32_S32x8192_S2x8192_1_0_0_1_n_n.lhsIdx (ix2 h l) _ 0).val = h.val
        unfold DotDims.lhsIdx
        rw [dif_neg (show ¬(0 : Fin S2x32.rank) ∈ dot_S2x32_S32x8192_S2x8192_1_0_0_1_n_n.lhsBatch by decide),
          dif_pos (show (0 : Fin S2x32.rank) ∈ dot_S2x32_S32x8192_S2x8192_1_0_0_1_n_n.lhsNonContracting by decide)]
        rfl
      | ⟨1, _⟩ => exact (dot_S2x32_S32x8192_S2x8192_1_0_0_1_n_n.lhsIdx_val_of_single rfl (ix2 h l) _).trans hk)
  have er : dot_S2x32_S32x8192_S2x8192_1_0_0_1_n_n.rhsIdx (ix2 h l) ((ValueIdx.contrEquiv1 dot_S2x32_S32x8192_S2x8192_1_0_0_1_n_n 32 rfl rfl).symm k) = ix2 k l :=
    funext fun a => Fin.ext (by
      match a with
      | ⟨0, _⟩ => exact (dot_S2x32_S32x8192_S2x8192_1_0_0_1_n_n.rhsIdx_val_of_single rfl (ix2 h l) _).trans hk
      | ⟨1, _⟩ =>
        show (dot_S2x32_S32x8192_S2x8192_1_0_0_1_n_n.rhsIdx (ix2 h l) _ 1).val = l.val
        unfold DotDims.rhsIdx
        rw [dif_neg (show ¬(1 : Fin S32x8192.rank) ∈ dot_S2x32_S32x8192_S2x8192_1_0_0_1_n_n.rhsBatch by decide),
          dif_pos (show (1 : Fin S32x8192.rank) ∈ dot_S2x32_S32x8192_S2x8192_1_0_0_1_n_n.rhsNonContracting by decide)]
        rfl)
  rw [el, er]

/-- A [1, 32] × [32, 8192] product into the zero accumulator, read at row `h`, lane `l`: the sum over the
    contracted axis of the products of the two operands' entries. -/
theorem matmul_1_32_apply (W : FVec Ideal S1x32 .bf16) (X : FVec Ideal S32x8192 .bf16) (h : Fin 1) (l : Fin 8192) :
    matmul dot_S1x32_S32x8192_S1x8192_1_0_0_1_n_n none W X (constant S1x8192 .f32 0x00000000#32) (ix2 h l)
      = ∑ k : Fin 32, W (ix2 h k) * X (ix2 k l) := by
  refine (Ideal.matmul_constant_zero_apply dot_S1x32_S32x8192_S1x8192_1_0_0_1_n_n none W X (ix2 h l)).trans ?_
  rw [← Equiv.sum_comp (ValueIdx.contrEquiv1 dot_S1x32_S32x8192_S1x8192_1_0_0_1_n_n 32 rfl rfl).symm]
  refine Finset.sum_congr rfl fun k _ => ?_
  have hk := ValueIdx.contrEquiv1_symm_val dot_S1x32_S32x8192_S1x8192_1_0_0_1_n_n 32 rfl rfl k
  have el : dot_S1x32_S32x8192_S1x8192_1_0_0_1_n_n.lhsIdx (ix2 h l) ((ValueIdx.contrEquiv1 dot_S1x32_S32x8192_S1x8192_1_0_0_1_n_n 32 rfl rfl).symm k) = ix2 h k :=
    funext fun a => Fin.ext (by
      match a with
      | ⟨0, _⟩ =>
        show (dot_S1x32_S32x8192_S1x8192_1_0_0_1_n_n.lhsIdx (ix2 h l) _ 0).val = h.val
        unfold DotDims.lhsIdx
        rw [dif_neg (show ¬(0 : Fin S1x32.rank) ∈ dot_S1x32_S32x8192_S1x8192_1_0_0_1_n_n.lhsBatch by decide),
          dif_pos (show (0 : Fin S1x32.rank) ∈ dot_S1x32_S32x8192_S1x8192_1_0_0_1_n_n.lhsNonContracting by decide)]
        rfl
      | ⟨1, _⟩ => exact (dot_S1x32_S32x8192_S1x8192_1_0_0_1_n_n.lhsIdx_val_of_single rfl (ix2 h l) _).trans hk)
  have er : dot_S1x32_S32x8192_S1x8192_1_0_0_1_n_n.rhsIdx (ix2 h l) ((ValueIdx.contrEquiv1 dot_S1x32_S32x8192_S1x8192_1_0_0_1_n_n 32 rfl rfl).symm k) = ix2 k l :=
    funext fun a => Fin.ext (by
      match a with
      | ⟨0, _⟩ => exact (dot_S1x32_S32x8192_S1x8192_1_0_0_1_n_n.rhsIdx_val_of_single rfl (ix2 h l) _).trans hk
      | ⟨1, _⟩ =>
        show (dot_S1x32_S32x8192_S1x8192_1_0_0_1_n_n.rhsIdx (ix2 h l) _ 1).val = l.val
        unfold DotDims.rhsIdx
        rw [dif_neg (show ¬(1 : Fin S32x8192.rank) ∈ dot_S1x32_S32x8192_S1x8192_1_0_0_1_n_n.rhsBatch by decide),
          dif_pos (show (1 : Fin S32x8192.rank) ∈ dot_S1x32_S32x8192_S1x8192_1_0_0_1_n_n.rhsNonContracting by decide)]
        rfl)
  rw [el, er]

/-! ## The body's values as the sample's quantities -/

/-- `σ` of a vector, at an entry. -/
theorem logistic_apply {s : Shape} {φ : FTy} (a : FVec Ideal s φ) (i : s.Idx) : logistic a i = Ideal.logistic (a i) := rfl

/-- The parameters as the body finds them in its blocks: the weights whole, each bias a column. -/
def blockParams (x1 : Vec Ideal S128x10 .f32) (x2 : Vec Ideal S128x1 .f32)
    (x3 : Vec Ideal S32x128 .f32) (x4 : Vec Ideal S32x1 .f32) (x5 : Vec Ideal S32x128 .f32) (x6 : Vec Ideal S32x1 .f32)
    (x7 : Vec Ideal S2x32 .f32) (x8 : Vec Ideal S2x1 .f32) (x9 : Vec Ideal S1x32 .f32) (x10 : Vec Ideal S1x1 .f32) : Params where
  W1 h f := x1 (ix2 h f)
  b1 h := x2 (ix2 h (0 : Fin 1))
  W21 j h := x3 (ix2 j h)
  b21 j := x4 (ix2 j (0 : Fin 1))
  W22 j h := x5 (ix2 j h)
  b22 j := x6 (ix2 j (0 : Fin 1))
  W31 c j := x7 (ix2 c j)
  b31 c := x8 (ix2 c (0 : Fin 1))
  W32 j := x9 (ix2 (0 : Fin 1) j)
  b32 := x10 (ix2 (0 : Fin 1) (0 : Fin 1))

/-- The sample in lane `l` of the observation block: its column. -/
def col (x0 : Vec Ideal S10x8192 .f32) (l : Fin 8192) : Fin 10 → EReal := fun f => x0 (ix2 f l)

section Body
variable (x0 : Vec Ideal S10x8192 .f32) (x1 : Vec Ideal S128x10 .f32) (x2 : Vec Ideal S128x1 .f32)
    (x3 : Vec Ideal S32x128 .f32) (x4 : Vec Ideal S32x1 .f32) (x5 : Vec Ideal S32x128 .f32) (x6 : Vec Ideal S32x1 .f32)
    (x7 : Vec Ideal S2x32 .f32) (x8 : Vec Ideal S2x1 .f32) (x9 : Vec Ideal S1x32 .f32) (x10 : Vec Ideal S1x1 .f32)

/-- The trunk's activations: row `h`, lane `l` is hidden value `h` of the sample in lane `l`. -/
theorem trunk_apply (h : Fin 128) (l : Fin 8192) :
    k0_pay5 x0 x1 x2 (ix2 h l) = trunk (blockParams x1 x2 x3 x4 x5 x6 x7 x8 x9 x10) (col x0 l) h := by
  unfold k0_pay5 k0_pay4
  try dsimp only
  simp only [truncf_apply, mulf_apply, addf_apply, subf_apply, divf_apply, maximumf_apply, logistic_apply, broadcast_apply, cmpf_apply, select_apply, shapeCast_self, matmul_128_10_apply, bcast_col_128]
  rfl

/-- The gain head's activations. -/
theorem headA_apply (j : Fin 32) (l : Fin 8192) :
    k0_pay6 x0 x1 x2 x5 x6 (ix2 j l) = headA (blockParams x1 x2 x3 x4 x5 x6 x7 x8 x9 x10) (col x0 l) j := by
  unfold k0_pay6
  try dsimp only
  simp only [truncf_apply, mulf_apply, addf_apply, subf_apply, divf_apply, maximumf_apply, logistic_apply, broadcast_apply, cmpf_apply, select_apply, shapeCast_self, matmul_32_128_apply, bcast_col_32, trunk_apply x0 x1 x2 x3 x4 x5 x6 x7 x8 x9 x10]
  rfl

/-- The control head's last product, before its bias. -/
theorem preUnom_apply (c : Fin 2) (l : Fin 8192) :
    k0_pay7 x0 x1 x2 x3 x4 x7 (ix2 c l) = ∑ j : Fin 32, x7 (ix2 c j) * headU (blockParams x1 x2 x3 x4 x5 x6 x7 x8 x9 x10) (col x0 l) j := by
  unfold k0_pay7
  try dsimp only
  simp only [truncf_apply, mulf_apply, addf_apply, subf_apply, divf_apply, maximumf_apply, logistic_apply, broadcast_apply, cmpf_apply, select_apply, shapeCast_self, matmul_2_32_apply, matmul_32_128_apply, bcast_col_32, trunk_apply x0 x1 x2 x3 x4 x5 x6 x7 x8 x9 x10]
  rfl

/-- The nominal control, both rows. -/
theorem unom_apply (c : Fin 2) (l : Fin 8192) :
    k0_pay9 (k0_pay7 x0 x1 x2 x3 x4 x7) (k0_pay8 x8) (ix2 c l) = unom (blockParams x1 x2 x3 x4 x5 x6 x7 x8 x9 x10) (col x0 l) c := by
  unfold k0_pay9 k0_pay8
  try dsimp only
  simp only [truncf_apply, mulf_apply, addf_apply, subf_apply, divf_apply, maximumf_apply, logistic_apply, broadcast_apply, cmpf_apply, select_apply, shapeCast_self, bcast_col_2, preUnom_apply x0 x1 x2 x3 x4 x5 x6 x7 x8 x9 x10]
  rfl

theorem unom0_apply (l : Fin 8192) :
    k0_pay15 (k0_pay7 x0 x1 x2 x3 x4 x7) (k0_pay8 x8) (ix2 (0 : Fin 1) l) = unom (blockParams x1 x2 x3 x4 x5 x6 x7 x8 x9 x10) (col x0 l) 0 := by
  unfold k0_pay15
  try dsimp only
  rw [slice_2_0, unom_apply x0 x1 x2 x3 x4 x5 x6 x7 x8 x9 x10]

theorem unom1_apply (l : Fin 8192) :
    k0_pay16 (k0_pay7 x0 x1 x2 x3 x4 x7) (k0_pay8 x8) (ix2 (0 : Fin 1) l) = unom (blockParams x1 x2 x3 x4 x5 x6 x7 x8 x9 x10) (col x0 l) 1 := by
  unfold k0_pay16
  try dsimp only
  rw [slice_2_1, unom_apply x0 x1 x2 x3 x4 x5 x6 x7 x8 x9 x10]

/-- The relative position's two coordinates, and the half-plane's normal. -/
theorem relx_apply (l : Fin 8192) : k0_pay10 (k0_pay4 x0) (ix2 (0 : Fin 1) l) = col x0 l 6 := by
  unfold k0_pay10 k0_pay4
  try dsimp only
  rw [shapeCast_self, slice_10_6]
  rfl

theorem rely_apply (l : Fin 8192) : k0_pay11 (k0_pay4 x0) (ix2 (0 : Fin 1) l) = col x0 l 7 := by
  unfold k0_pay11 k0_pay4
  try dsimp only
  rw [shapeCast_self, slice_10_7]
  rfl

theorem gx_apply (l : Fin 8192) : k0_pay12 (k0_pay4 x0) (ix2 (0 : Fin 1) l) = gx (col x0 l) := by
  unfold k0_pay12
  try dsimp only
  simp only [mulf_apply, broadcast_apply, relx_apply x0]
  rfl

theorem gy_apply (l : Fin 8192) : k0_pay13 (k0_pay4 x0) (ix2 (0 : Fin 1) l) = gy (col x0 l) := by
  unfold k0_pay13
  try dsimp only
  simp only [mulf_apply, broadcast_apply, rely_apply x0]
  rfl

theorem gg_apply (l : Fin 8192) : k0_pay14 (k0_pay4 x0) (ix2 (0 : Fin 1) l) = gg (col x0 l) := by
  unfold k0_pay14
  try dsimp only
  simp only [mulf_apply, addf_apply, gx_apply x0, gy_apply x0]
  rfl

theorem ggPos_apply (l : Fin 8192) :
    k0_pay17 (k0_pay4 x0) (ix2 (0 : Fin 1) l) = Ideal.cmp .ogt (gg (col x0 l)) zero := by
  unfold k0_pay17
  try dsimp only
  simp only [cmpf_apply, broadcast_apply, gg_apply x0]
  rfl

/-- The violation, clipped at zero. -/
theorem violPos_apply (l : Fin 8192) :
    k0_pay18 (k0_pay4 x0) (k0_pay6 x0 x1 x2 x5 x6) (k0_pay7 x0 x1 x2 x3 x4 x7) (k0_pay8 x8) x9 x10 (ix2 (0 : Fin 1) l)
      = max (viol (blockParams x1 x2 x3 x4 x5 x6 x7 x8 x9 x10) (col x0 l)) zero := by
  unfold k0_pay18
  try dsimp only
  simp only [truncf_apply, mulf_apply, addf_apply, subf_apply, divf_apply, maximumf_apply, logistic_apply, broadcast_apply, cmpf_apply, select_apply, shapeCast_self, matmul_1_32_apply, bcast_col_1, headA_apply x0 x1 x2 x3 x4 x5 x6 x7 x8 x9 x10, relx_apply x0, rely_apply x0, gx_apply x0, gy_apply x0,
    unom0_apply x0 x1 x2 x3 x4 x5 x6 x7 x8 x9 x10, unom1_apply x0 x1 x2 x3 x4 x5 x6 x7 x8 x9 x10]
  rw [show k0_pay4 x0 = x0 from shapeCast_self _ _, slice_10_8, slice_10_9]
  rfl

/-- THE FIRST STORED ROW: component 0 of the projected control of the sample in lane `l`. -/
theorem row0_apply (l : Fin 8192) :
    k0_pay2 (k0_pay12 (k0_pay4 x0)) (k0_pay14 (k0_pay4 x0)) (k0_pay15 (k0_pay7 x0 x1 x2 x3 x4 x7) (k0_pay8 x8)) (k0_pay17 (k0_pay4 x0))
        (k0_pay18 (k0_pay4 x0) (k0_pay6 x0 x1 x2 x5 x6) (k0_pay7 x0 x1 x2 x3 x4 x7) (k0_pay8 x8) x9 x10) (k0_pay19 (F := Ideal)) (ix2 (0 : Fin 1) l)
      = out (blockParams x1 x2 x3 x4 x5 x6 x7 x8 x9 x10) (col x0 l) 0 := by
  unfold k0_pay2 k0_pay1 k0_pay19
  try dsimp only
  simp only [truncf_apply, mulf_apply, addf_apply, subf_apply, divf_apply, maximumf_apply, logistic_apply, broadcast_apply, cmpf_apply, select_apply, shapeCast_self, gx_apply x0, gg_apply x0, ggPos_apply x0, unom0_apply x0 x1 x2 x3 x4 x5 x6 x7 x8 x9 x10, violPos_apply x0 x1 x2 x3 x4 x5 x6 x7 x8 x9 x10]
  rfl

/-- THE SECOND STORED ROW: component 1. -/
theorem row1_apply (l : Fin 8192) :
    k0_pay3 (k0_pay13 (k0_pay4 x0)) (k0_pay14 (k0_pay4 x0)) (k0_pay16 (k0_pay7 x0 x1 x2 x3 x4 x7) (k0_pay8 x8)) (k0_pay17 (k0_pay4 x0))
        (k0_pay18 (k0_pay4 x0) (k0_pay6 x0 x1 x2 x5 x6) (k0_pay7 x0 x1 x2 x3 x4 x7) (k0_pay8 x8) x9 x10) (k0_pay19 (F := Ideal)) (ix2 (0 : Fin 1) l)
      = out (blockParams x1 x2 x3 x4 x5 x6 x7 x8 x9 x10) (col x0 l) 1 := by
  unfold k0_pay3 k0_pay1 k0_pay19
  try dsimp only
  simp only [truncf_apply, mulf_apply, addf_apply, subf_apply, divf_apply, maximumf_apply, logistic_apply, broadcast_apply, cmpf_apply, select_apply, shapeCast_self, gy_apply x0, gg_apply x0, ggPos_apply x0, unom1_apply x0 x1 x2 x3 x4 x5 x6 x7 x8 x9 x10, violPos_apply x0 x1 x2 x3 x4 x5 x6 x7 x8 x9 x10]
  rfl

end Body

end Cert.KernelIdeal.BodyValue

end
-- ==== Proof.KernelArray.lean ====
/-
  The kernel's result array as one function of the argument arrays.

  The host transposes the observations to [10, 524288] and turns each bias into a column before the region; the
  region runs the body on 64 blocks of 8192 lanes, the weights and bias columns whole at every point, and writes
  block `t` of a [2, 524288] array; the host transposes that array back. So entry `(b, c)` of the result is
  component `c` of the projected control of sample `b`.
-/
import proofs.«110257_j12807592476726_2_alg».proof.Proof.Gen.KernelIdeal.Frame
import proofs.«110257_j12807592476726_2_alg».proof.Proof.KernelBody
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Cert.KernelIdeal Cert.KernelIdeal.Gen Cert.KernelIdeal.BodyValue Cert.BarrierQP
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region finds in the arrays the host wrote -/

/-- The transposed observations: entry `(f, b)` is observation `f` of sample `b`. -/
theorem obsT_apply (c : Dev nD) (f : Fin 10) (b : Fin 524288) :
    V m c main_v0 (ix2 f b) = m ((c : Thread nD τ).loc main_arg0) (ix2 b f) := by
  have e : (V m c main_v0 : S10x524288.Idx → EReal)
      = transpose S10x524288 [1, 0] (m ((c : Thread nD τ).loc main_arg0)) transposes_S524288x10_S10x524288_1_0 := by
    show StableHlo.after hostOps0 (fun b => m (c, b)) (Proc.devRef .tc main_v0) = _
    after_results
  rw [e]
  exact transpose_apply [1, 0] _ transposes_S524288x10_S10x524288_1_0 (ix2 f b) (ix2 b f)
    (fun a => match a with | ⟨0, _⟩ => rfl | ⟨1, _⟩ => rfl)

/-- The bias column the region finds in `main_v1` is the bias vector, entry by entry. -/
theorem b1col_apply (c : Dev nD) (h : Fin 128) :
    V m c main_v1 (ix2 h (0 : Fin 1)) = m ((c : Thread nD τ).loc main_arg2) (ix1 h) := by
  have e : (V m c main_v1 : S128x1.Idx → EReal) = shapeCast S128x1 (m ((c : Thread nD τ).loc main_arg2)) shapeCasts_S128_S128x1 := by
    show StableHlo.after hostOps0 (fun b => m (c, b)) (Proc.devRef .tc main_v1) = _
    after_results
    rfl
  rw [e]
  exact shapeCast_apply _ shapeCasts_S128_S128x1 (ix2 h (0 : Fin 1)) (ix1 h)
    (by rw [Shape.rowMajor_val_one, Shape.rowMajor_val_two]; show h.val = h.val * 1 + 0; omega)

/-- The bias column the region finds in `main_v2` is the bias vector, entry by entry. -/
theorem b21col_apply (c : Dev nD) (h : Fin 32) :
    V m c main_v2 (ix2 h (0 : Fin 1)) = m ((c : Thread nD τ).loc main_arg4) (ix1 h) := by
  have e : (V m c main_v2 : S32x1.Idx → EReal) = shapeCast S32x1 (m ((c : Thread nD τ).loc main_arg4)) shapeCasts_S32_S32x1 := by
    show StableHlo.after hostOps0 (fun b => m (c, b)) (Proc.devRef .tc main_v2) = _
    after_results
    rfl
  rw [e]
  exact shapeCast_apply _ shapeCasts_S32_S32x1 (ix2 h (0 : Fin 1)) (ix1 h)
    (by rw [Shape.rowMajor_val_one, Shape.rowMajor_val_two]; show h.val = h.val * 1 + 0; omega)

/-- The bias column the region finds in `main_v3` is the bias vector, entry by entry. -/
theorem b22col_apply (c : Dev nD) (h : Fin 32) :
    V m c main_v3 (ix2 h (0 : Fin 1)) = m ((c : Thread nD τ).loc main_arg6) (ix1 h) := by
  have e : (V m c main_v3 : S32x1.Idx → EReal) = shapeCast S32x1 (m ((c : Thread nD τ).loc main_arg6)) shapeCasts_S32_S32x1 := by
    show StableHlo.after hostOps0 (fun b => m (c, b)) (Proc.devRef .tc main_v3) = _
    after_results
    rfl
  rw [e]
  exact shapeCast_apply _ shapeCasts_S32_S32x1 (ix2 h (0 : Fin 1)) (ix1 h)
    (by rw [Shape.rowMajor_val_one, Shape.rowMajor_val_two]; show h.val = h.val * 1 + 0; omega)

/-- The bias column the region finds in `main_v4` is the bias vector, entry by entry. -/
theorem b31col_apply (c : Dev nD) (h : Fin 2) :
    V m c main_v4 (ix2 h (0 : Fin 1)) = m ((c : Thread nD τ).loc main_arg8) (ix1 h) := by
  have e : (V m c main_v4 : S2x1.Idx → EReal) = shapeCast S2x1 (m ((c : Thread nD τ).loc main_arg8)) shapeCasts_S2_S2x1 := by
    show StableHlo.after hostOps0 (fun b => m (c, b)) (Proc.devRef .tc main_v4) = _
    after_results
    rfl
  rw [e]
  exact shapeCast_apply _ shapeCasts_S2_S2x1 (ix2 h (0 : Fin 1)) (ix1 h)
    (by rw [Shape.rowMajor_val_one, Shape.rowMajor_val_two]; show h.val = h.val * 1 + 0; omega)

/-- The bias column the region finds in `main_v5` is the bias vector, entry by entry. -/
theorem b32col_apply (c : Dev nD) (h : Fin 1) :
    V m c main_v5 (ix2 h (0 : Fin 1)) = m ((c : Thread nD τ).loc main_arg10) (ix1 h) := by
  have e : (V m c main_v5 : S1x1.Idx → EReal) = shapeCast S1x1 (m ((c : Thread nD τ).loc main_arg10)) shapeCasts_S1_S1x1 := by
    show StableHlo.after hostOps0 (fun b => m (c, b)) (Proc.devRef .tc main_v5) = _
    after_results
    rfl
  rw [e]
  exact shapeCast_apply _ shapeCasts_S1_S1x1 (ix2 h (0 : Fin 1)) (ix1 h)
    (by rw [Shape.rowMajor_val_one, Shape.rowMajor_val_two]; show h.val = h.val * 1 + 0; omega)

/-! ## The windows' blocks -/

theorem hz : (![0, 0] : Fin 2 → Nat) = fun _ => 0 := funext fun a => by fin_cases a <;> rfl

/-- The printed index maps over the 64 grid points: the observation and result windows move along the lanes with the
    point, every other window stays at block zero. -/
theorem idx_facts : ∀ t : Fin cfg0.N,
    win0_0.index t (0 : Fin 2) = 0
    ∧ win0_0.index t (1 : Fin 2) = t.val
    ∧ win0_11.index t (0 : Fin 2) = 0
    ∧ win0_11.index t (1 : Fin 2) = t.val
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

theorem point_lt (t : Fin cfg0.N) : t.val < 64 := lt_of_lt_of_eq t.isLt N_0

/-- The sample in lane `l` of grid point `t`. -/
def sampleOf (t : Fin cfg0.N) (l : Fin 8192) : Fin 524288 :=
  ⟨t.val * 8192 + l.val, by have := point_lt t; have := l.isLt; omega⟩

/-- The observation block at point `t`: lanes `t · 8192 …` of the transposed observations. -/
theorem iblk0_apply (c : Dev nD) (t : Fin cfg0.N) (f : Fin 10) (l : Fin 8192) :
    iblk m c 0 t (ix2 f l) = V m c main_v0 (ix2 f (sampleOf t l)) := by
  show V m c main_v0 (((cfg0.win 0).blk t).view.emb (ix2 f l)) = V m c main_v0 (ix2 f (sampleOf t l))
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_0.index t (0 : Fin 2) * 10 + 1 * f.val = f.val; omega
  | ⟨1, _⟩ => show win0_0.index t (1 : Fin 2) * 8192 + 1 * l.val = t.val * 8192 + l.val; omega

theorem iblk1_apply (c : Dev nD) (t : Fin cfg0.N) (y : S128x10.Idx) : iblk m c 1 t y = V m c main_arg1 y := by
  show V m c main_arg1 (((cfg0.win 1).blk t).view.emb y) = V m c main_arg1 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 10 + 1 * (y 1).val = (y 1).val; omega

theorem iblk2_apply (c : Dev nD) (t : Fin cfg0.N) (y : S128x1.Idx) : iblk m c 2 t y = V m c main_v1 y := by
  show V m c main_v1 (((cfg0.win 2).blk t).view.emb y) = V m c main_v1 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 1 + 1 * (y 1).val = (y 1).val; omega

theorem iblk3_apply (c : Dev nD) (t : Fin cfg0.N) (y : S32x128.Idx) : iblk m c 3 t y = V m c main_arg3 y := by
  show V m c main_arg3 (((cfg0.win 3).blk t).view.emb y) = V m c main_arg3 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 128 + 1 * (y 1).val = (y 1).val; omega

theorem iblk4_apply (c : Dev nD) (t : Fin cfg0.N) (y : S32x1.Idx) : iblk m c 4 t y = V m c main_v2 y := by
  show V m c main_v2 (((cfg0.win 4).blk t).view.emb y) = V m c main_v2 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_4.index t (0 : Fin 2) * 32 + 1 * (y 0).val = (y 0).val; omega
  | ⟨1, _⟩ => show win0_4.index t (1 : Fin 2) * 1 + 1 * (y 1).val = (y 1).val; omega

theorem iblk5_apply (c : Dev nD) (t : Fin cfg0.N) (y : S32x128.Idx) : iblk m c 5 t y = V m c main_arg5 y := by
  show V m c main_arg5 (((cfg0.win 5).blk t).view.emb y) = V m c main_arg5 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_5.index t (0 : Fin 2) * 32 + 1 * (y 0).val = (y 0).val; omega
  | ⟨1, _⟩ => show win0_5.index t (1 : Fin 2) * 128 + 1 * (y 1).val = (y 1).val; omega

theorem iblk6_apply (c : Dev nD) (t : Fin cfg0.N) (y : S32x1.Idx) : iblk m c 6 t y = V m c main_v3 y := by
  show V m c main_v3 (((cfg0.win 6).blk t).view.emb y) = V m c main_v3 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_6.index t (0 : Fin 2) * 32 + 1 * (y 0).val = (y 0).val; omega
  | ⟨1, _⟩ => show win0_6.index t (1 : Fin 2) * 1 + 1 * (y 1).val = (y 1).val; omega

theorem iblk7_apply (c : Dev nD) (t : Fin cfg0.N) (y : S2x32.Idx) : iblk m c 7 t y = V m c main_arg7 y := by
  show V m c main_arg7 (((cfg0.win 7).blk t).view.emb y) = V m c main_arg7 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_7.index t (0 : Fin 2) * 2 + 1 * (y 0).val = (y 0).val; omega
  | ⟨1, _⟩ => show win0_7.index t (1 : Fin 2) * 32 + 1 * (y 1).val = (y 1).val; omega

theorem iblk8_apply (c : Dev nD) (t : Fin cfg0.N) (y : S2x1.Idx) : iblk m c 8 t y = V m c main_v4 y := by
  show V m c main_v4 (((cfg0.win 8).blk t).view.emb y) = V m c main_v4 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_8.index t (0 : Fin 2) * 2 + 1 * (y 0).val = (y 0).val; omega
  | ⟨1, _⟩ => show win0_8.index t (1 : Fin 2) * 1 + 1 * (y 1).val = (y 1).val; omega

theorem iblk9_apply (c : Dev nD) (t : Fin cfg0.N) (y : S1x32.Idx) : iblk m c 9 t y = V m c main_arg9 y := by
  show V m c main_arg9 (((cfg0.win 9).blk t).view.emb y) = V m c main_arg9 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 32 + 1 * (y 1).val = (y 1).val; omega

theorem iblk10_apply (c : Dev nD) (t : Fin cfg0.N) (y : S1x1.Idx) : iblk m c 10 t y = V m c main_v5 y := by
  show V m c main_v5 (((cfg0.win 10).blk t).view.emb y) = V m c main_v5 y
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 1 + 1 * (y 1).val = (y 1).val; omega

/-- Lane `l` of the observation block at point `t` is the sample's row of the observation matrix. -/
theorem col_iblk (c : Dev nD) (t : Fin cfg0.N) (l : Fin 8192) :
    col (iblk m c 0 t) l = row (m ((c : Thread nD τ).loc main_arg0)) (sampleOf t l) := by
  funext f
  show iblk m c 0 t (ix2 f l) = m ((c : Thread nD τ).loc main_arg0) (ix2 (sampleOf t l) f)
  rw [iblk0_apply, obsT_apply]

/-- The parameters the body finds in its blocks are the argument arrays'. -/
theorem params_iblk (c : Dev nD) (t : Fin cfg0.N) :
    (blockParams (iblk m c 1 t) (iblk m c 2 t) (iblk m c 3 t) (iblk m c 4 t) (iblk m c 5 t) (iblk m c 6 t) (iblk m c 7 t) (iblk m c 8 t) (iblk m c 9 t) (iblk m c 10 t)) = (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have e1 : ∀ h f, iblk m c 1 t (ix2 h f) = m ((c : Thread nD τ).loc main_arg1) (ix2 h f) := fun h f => by rw [iblk1_apply, V_main_arg1]
  have e2 : ∀ h, iblk m c 2 t (ix2 h (0 : Fin 1)) = m ((c : Thread nD τ).loc main_arg2) (ix1 h) := fun h => by rw [iblk2_apply, b1col_apply]
  have e3 : ∀ j h, iblk m c 3 t (ix2 j h) = m ((c : Thread nD τ).loc main_arg3) (ix2 j h) := fun j h => by rw [iblk3_apply, V_main_arg3]
  have e4 : ∀ j, iblk m c 4 t (ix2 j (0 : Fin 1)) = m ((c : Thread nD τ).loc main_arg4) (ix1 j) := fun j => by rw [iblk4_apply, b21col_apply]
  have e5 : ∀ j h, iblk m c 5 t (ix2 j h) = m ((c : Thread nD τ).loc main_arg5) (ix2 j h) := fun j h => by rw [iblk5_apply, V_main_arg5]
  have e6 : ∀ j, iblk m c 6 t (ix2 j (0 : Fin 1)) = m ((c : Thread nD τ).loc main_arg6) (ix1 j) := fun j => by rw [iblk6_apply, b22col_apply]
  have e7 : ∀ k j, iblk m c 7 t (ix2 k j) = m ((c : Thread nD τ).loc main_arg7) (ix2 k j) := fun k j => by rw [iblk7_apply, V_main_arg7]
  have e8 : ∀ k, iblk m c 8 t (ix2 k (0 : Fin 1)) = m ((c : Thread nD τ).loc main_arg8) (ix1 k) := fun k => by rw [iblk8_apply, b31col_apply]
  have e9 : ∀ j, iblk m c 9 t (ix2 (0 : Fin 1) j) = m ((c : Thread nD τ).loc main_arg9) (ix2 (0 : Fin 1) j) := fun j => by rw [iblk9_apply, V_main_arg9]
  have e10 : iblk m c 10 t (ix2 (0 : Fin 1) (0 : Fin 1)) = m ((c : Thread nD τ).loc main_arg10) (ix1 (0 : Fin 1)) := by rw [iblk10_apply, b32col_apply]
  simp only [blockParams, paramsOf, e1, e2, e3, e4, e5, e6, e7, e8, e9, e10]

/-! ## What the body leaves in the result window's buffer -/

/-- The two stored rows together: entry `(r, l)` of the buffer is component `r` of the projected control of the sample
    in lane `l`. -/
theorem outBlock_apply (x0 : Vec Ideal S10x8192 .f32) (x1 : Vec Ideal S128x10 .f32) (x2 : Vec Ideal S128x1 .f32)
    (x3 : Vec Ideal S32x128 .f32) (x4 : Vec Ideal S32x1 .f32) (x5 : Vec Ideal S32x128 .f32) (x6 : Vec Ideal S32x1 .f32)
    (x7 : Vec Ideal S2x32 .f32) (x8 : Vec Ideal S2x1 .f32) (x9 : Vec Ideal S1x32 .f32) (x10 : Vec Ideal S1x1 .f32) (y : S2x8192.Idx) :
    out0_11 x0 x1 x2 x3 x4 x5 x6 x7 x8 x9 x10 y
      = out (blockParams x1 x2 x3 x4 x5 x6 x7 x8 x9 x10) (col x0 ⟨(y 1).val, (y 1).isLt⟩) ⟨(y 0).val, (y 0).isLt⟩ := by
  unfold out0_11
  simp only [View.ld_unit_zero (S := S10x8192) hz, View.ld_unit_zero (S := S128x10) hz, View.ld_unit_zero (S := S128x1) hz,
    View.ld_unit_zero (S := S32x128) hz, View.ld_unit_zero (S := S32x1) hz, View.ld_unit_zero (S := S2x32) hz,
    View.ld_unit_zero (S := S2x1) hz, View.ld_unit_zero (S := S1x32) hz, View.ld_unit_zero (S := S1x1) hz]
  refine View.canon_apply_of_pieces (Val := Elt Ideal)
    (fun y : S2x8192.Idx => out (blockParams x1 x2 x3 x4 x5 x6 x7 x8 x9 x10) (col x0 ⟨(y 1).val, (y 1).isLt⟩) ⟨(y 0).val, (y 0).isLt⟩) _ ?_ y (cover0_11 _ _ y)
  intro p hp
  simp only [List.mem_cons, List.mem_nil_iff, or_false] at hp
  rcases hp with rfl | rfl
  · intro x
    obtain ⟨l, rfl⟩ : ∃ l : Fin 8192, x = ix2 (0 : Fin 1) l := ⟨⟨(x 1).val, (x 1).isLt⟩, funext fun a => Fin.ext (by
      match a with
      | ⟨0, _⟩ => have h0 : (x 0).val < 1 := (x 0).isLt; show (x 0).val = 0; omega
      | ⟨1, _⟩ => rfl)⟩
    refine (row1_apply x0 x1 x2 x3 x4 x5 x6 x7 x8 x9 x10 l).trans ?_
    have el : (⟨((r0_10.emb (ix2 (0 : Fin 1) l)) 1).val, ((r0_10.emb (ix2 (0 : Fin 1) l)) 1).isLt⟩ : Fin 8192) = l :=
      Fin.ext (by show 0 + 1 * l.val = l.val; omega)
    have er : (⟨((r0_10.emb (ix2 (0 : Fin 1) l)) 0).val, ((r0_10.emb (ix2 (0 : Fin 1) l)) 0).isLt⟩ : Fin 2) = 1 :=
      Fin.ext (by show 1 + 1 * 0 = 1; rfl)
    show _ = out _ (col x0 ⟨((r0_10.emb (ix2 (0 : Fin 1) l)) 1).val, _⟩) ⟨((r0_10.emb (ix2 (0 : Fin 1) l)) 0).val, _⟩
    rw [el, er]
  · intro x
    obtain ⟨l, rfl⟩ : ∃ l : Fin 8192, x = ix2 (0 : Fin 1) l := ⟨⟨(x 1).val, (x 1).isLt⟩, funext fun a => Fin.ext (by
      match a with
      | ⟨0, _⟩ => have h0 : (x 0).val < 1 := (x 0).isLt; show (x 0).val = 0; omega
      | ⟨1, _⟩ => rfl)⟩
    refine (row0_apply x0 x1 x2 x3 x4 x5 x6 x7 x8 x9 x10 l).trans ?_
    have el : (⟨((r0_9.emb (ix2 (0 : Fin 1) l)) 1).val, ((r0_9.emb (ix2 (0 : Fin 1) l)) 1).isLt⟩ : Fin 8192) = l :=
      Fin.ext (by show 0 + 1 * l.val = l.val; omega)
    have er : (⟨((r0_9.emb (ix2 (0 : Fin 1) l)) 0).val, ((r0_9.emb (ix2 (0 : Fin 1) l)) 0).isLt⟩ : Fin 2) = 0 :=
      Fin.ext (by show 0 + 1 * 0 = 0; rfl)
    show _ = out _ (col x0 ⟨((r0_9.emb (ix2 (0 : Fin 1) l)) 1).val, _⟩) ⟨((r0_9.emb (ix2 (0 : Fin 1) l)) 0).val, _⟩
    rw [el, er]

/-! ## From the blocks to the array -/

/-- The region's result array, transposed as the kernel writes it: entry `(r, b)` is component `r` of sample `b`'s
    projected control. -/
def resultT (c : Dev nD) : S2x524288.Idx → EReal := fun i =>
  out (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (row (m ((c : Thread nD τ).loc main_arg0)) ⟨(i 1).val, (i 1).isLt⟩) ⟨(i 0).val, (i 0).isLt⟩

/-- WHAT POINT `t` WRITES BACK is block `t` of that array. -/
theorem flushed_eq (c : Dev nD) (t : Fin cfg0.N) :
    (dats m 0 c).flushed 11 t = ((cfg0.win 11).blk t).view.read (Elt Ideal) (resultT m c) := by
  show (cfg0.win 11).cut (grid0.coords t) ((dats m 0 c).after 11 t) = _
  rw [after0_11]
  funext y
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = resultT m c (((cfg0.win 11).blk t).view.emb y)
  refine (outBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) y).trans ?_
  rw [params_iblk m c t, col_iblk m c t]
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  have eb : (⟨((((cfg0.win 11).blk t).view.emb y) 1).val, ((((cfg0.win 11).blk t).view.emb y) 1).isLt⟩ : Fin 524288)
      = sampleOf t ⟨(y 1).val, (y 1).isLt⟩ :=
    Fin.ext (by show win0_11.index t (1 : Fin 2) * 8192 + 1 * (y 1).val = t.val * 8192 + (y 1).val; omega)
  have er : (⟨((((cfg0.win 11).blk t).view.emb y) 0).val, ((((cfg0.win 11).blk t).view.emb y) 0).isLt⟩ : Fin 2)
      = ⟨(y 0).val, (y 0).isLt⟩ :=
    Fin.ext (by show win0_11.index t (0 : Fin 2) * 2 + 1 * (y 0).val = (y 0).val; omega)
  show _ = out _ (row _ ⟨((((cfg0.win 11).blk t).view.emb y) 1).val, _⟩) ⟨((((cfg0.win 11).blk t).view.emb y) 0).val, _⟩
  rw [eb, er]

/-- An index of the array is in point `t`'s block iff each coordinate is in the block's range on its axis. -/
theorem mem_blk (t : Fin cfg0.N) (i : S2x524288.Idx) :
    i ∈ ((cfg0.win 11).blk t).view.set ↔ ∀ a : Fin 2, win0_11.index t a * S2x8192.size a ≤ (i a).val
      ∧ (i a).val < win0_11.index t a * S2x8192.size a + S2x8192.size a := by
  show i ∈ ((View.whole main_v6).slice (win0_11.rect t)).set ↔ _
  rw [View.set_slice_whole, Rect.mem_set_unit]
  exact Iff.rfl

/-- Every entry is in some point's block: sample `b` is in block `b / 8192`. -/
theorem cover (i : S2x524288.Idx) :
    ∃ t : Fin cfg0.N, (cfg0.win 11).flush t = true ∧ i ∈ ((cfg0.win 11).blk t).view.set := by
  have hi0 : (i 0).val < 2 := (i 0).isLt
  have hi1 : (i 1).val < 524288 := (i 1).isLt
  obtain ⟨t, ht⟩ : ∃ t : Fin cfg0.N, t.val = (i 1).val / 8192 :=
    ⟨⟨(i 1).val / 8192, lt_of_lt_of_eq (show (i 1).val / 8192 < 64 by omega) N_0.symm⟩, rfl⟩
  obtain ⟨a0, a1, o0, o1, p1_0, p1_1, p2_0, p2_1, p3_0, p3_1, p4_0, p4_1, p5_0, p5_1, p6_0, p6_1, p7_0, p7_1, p8_0, p8_1, p9_0, p9_1, p10_0, p10_1⟩ := idx_facts t
  refine ⟨t, flush0_11 t, ?_⟩
  rw [mem_blk]
  intro a
  match a with
  | ⟨0, _⟩ => show win0_11.index t (0 : Fin 2) * 2 ≤ (i 0).val ∧ (i 0).val < win0_11.index t (0 : Fin 2) * 2 + 2; omega
  | ⟨1, _⟩ => show win0_11.index t (1 : Fin 2) * 8192 ≤ (i 1).val ∧ (i 1).val < win0_11.index t (1 : Fin 2) * 8192 + 8192; omega

/-- THE REGION'S RESULT ARRAY after the run. -/
theorem final (c : Dev nD) : (dats m 0 c).arrAt 11 cfg0.N = resultT m c :=
  (dats m 0 c).arrAt_eq_of_cover 11 (resultT m c) (fun t _ => flushed_eq m c t) cover

/-! ## The host's last transpose, and the run -/

/-- The returned array: the region's result transposed back, entry `(b, c)` component `c` of sample `b`. -/
theorem tail_eq (c : Dev nD) :
    Pipeline.afterTail₀ cfgs (dats m) 0 (V0 m) [hostOps1] c main_v7
      = result (m ((c : Thread nD τ).loc main_arg0)) (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have e : (Pipeline.afterTail₀ cfgs (dats m) 0 (V0 m) [hostOps1] c main_v7 : S524288x2.Idx → EReal)
      = transpose S524288x2 [1, 0] (resultT m c) transposes_S2x524288_S524288x2_1_0 := by
    unfold Pipeline.afterTail₀
    show StableHlo.after hostOps1 _ (Proc.devRef .tc main_v7) = _
    after_results
    rw [(Pipeline.withArrays_arr spec0 launch0.win.arr_inj c _ _ 11).trans (final m c)]
  rw [e]
  funext i
  obtain ⟨b, k, rfl⟩ : ∃ (b : Fin 524288) (k : Fin 2), i = ix2 b k :=
    ⟨⟨(i 0).val, (i 0).isLt⟩, ⟨(i 1).val, (i 1).isLt⟩, funext fun a => Fin.ext (by
      match a with
      | ⟨0, _⟩ => rfl
      | ⟨1, _⟩ => rfl)⟩
  refine (transpose_apply [1, 0] (resultT m c) transposes_S2x524288_S524288x2_1_0 (ix2 b k) (ix2 k b)
    (fun a => match a with | ⟨0, _⟩ => rfl | ⟨1, _⟩ => rfl)).trans ?_
  rfl

/-- THE KERNEL'S RUN, READ: every weakly fair execution terminates with the returned array at the projected controls
    of the argument arrays, and the arguments unchanged. -/
theorem run : θ_run defs (onTc (τ := τ) (main (F := Ideal))) ⟨m, fun _ => 0, ρ⟩ fun r => ∀ c : Dev nD,
      r.2.mem ((c : Thread nD τ).loc main_v7) = result (m ((c : Thread nD τ).loc main_arg0)) (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).2 main_v7 (Pipeline.mem_restRefs_of main_v7 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c))⟩)
    (run_main m ρ)

end Cert.KernelIdeal.ArrayValue

end
-- ==== Proof.RefValue.lean ====
/-
  The reference program's result is the projected control of the specification.

  The program is read one operation at a time at an index whose coordinates are literal-size
  variables: a sample `b` and a hidden unit, a control component, or nothing. Each layer is a
  contraction `∑ k, act (b, k) * Wᵀ (k, h)` against a transposed weight followed by a bias broadcast
  along the samples; commuting the product under the sum gives the specification's weight row against the
  layer's input. The sigmoid is spelled `1 / (1 + e^(-z))` with the word of 1.0, which denotes 1. The
  half-plane's normal is two columns joined along the second axis, so its entry `(b, 0)` is the first
  column's and `(b, 1)` the second's; the two sums over that axis start from the word of 0.0, which
  denotes 0, and `0 + (s + t) = s + t`. Nothing else is used: no law that fails at an infinity.
-/
import proofs.«110257_j12807592476726_2_alg».proof.Proof.Gen.ReferenceIdeal.Read
import proofs.«110257_j12807592476726_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.BarrierQP

variable (x0 : (⟨S524288x10, .f32⟩ : BufTy).Contents (Elt Ideal)) (x1 : (⟨S128x10, .f32⟩ : BufTy).Contents (Elt Ideal))
  (x2 : (⟨S128, .f32⟩ : BufTy).Contents (Elt Ideal)) (x3 : (⟨S32x128, .f32⟩ : BufTy).Contents (Elt Ideal))
  (x4 : (⟨S32, .f32⟩ : BufTy).Contents (Elt Ideal)) (x5 : (⟨S32x128, .f32⟩ : BufTy).Contents (Elt Ideal))
  (x6 : (⟨S32, .f32⟩ : BufTy).Contents (Elt Ideal)) (x7 : (⟨S2x32, .f32⟩ : BufTy).Contents (Elt Ideal))
  (x8 : (⟨S2, .f32⟩ : BufTy).Contents (Elt Ideal)) (x9 : (⟨S1x32, .f32⟩ : BufTy).Contents (Elt Ideal))
  (x10 : (⟨S1, .f32⟩ : BufTy).Contents (Elt Ideal))

local notation "P" => paramsOf x1 x2 x3 x4 x5 x6 x7 x8 x9 x10

/-! ## Scalar facts -/

/-- `z · (1 / (1 + e^(-z)))`, with the word of 1.0 for each 1, is `silu z`. -/
theorem silu_word (z : Ideal .f32) :
    FloatOps.mulf z (FloatOps.hostDivf (FloatOps.ofBits (F := Ideal) .f32 0x3F800000#32)
      (FloatOps.addf (FloatOps.ofBits (F := Ideal) .f32 0x3F800000#32)
        (FloatOps.hostUnary .exp (FloatOps.hostNegf z)))) = silu z := by
  show z * Ideal.div (Ideal.ofBits .f32 0x3F800000#32)
      (Ideal.ofBits .f32 0x3F800000#32 + Ideal.exp (-z)) = z * Ideal.div 1 (1 + Ideal.exp (-z))
  rw [ofBits_one_f32]

/-- `1 / (1 + e^(-z))`, with the word of 1.0 for each 1, is the sigmoid. -/
theorem logistic_word (z : Ideal .f32) :
    FloatOps.hostDivf (FloatOps.ofBits (F := Ideal) .f32 0x3F800000#32)
      (FloatOps.addf (FloatOps.ofBits (F := Ideal) .f32 0x3F800000#32)
        (FloatOps.hostUnary .exp (FloatOps.hostNegf z))) = Ideal.logistic z := by
  show Ideal.div (Ideal.ofBits .f32 0x3F800000#32)
      (Ideal.ofBits .f32 0x3F800000#32 + Ideal.exp (-z)) = Ideal.div 1 (1 + Ideal.exp (-z))
  rw [ofBits_one_f32]

/-- A contraction with the activations on the left and the weights on the right, plus a bias, is the
    affine map: the product commutes under the sum. -/
theorem affine_of_dot {n : Nat} (l r w x : Fin n → EReal) (c c' : EReal)
    (hl : ∀ k, l k = x k) (hr : ∀ k, r k = w k) (hc : c = c') :
    FloatOps.addf (F := Ideal) (φ := .f32) (∑ k, l k * r k) c = affine w x c' := by
  subst hc
  show (∑ k, l k * r k) + c = (∑ k, w k * x k) + c
  exact congrArg (· + c) (Finset.sum_congr rfl fun k _ => by rw [hl, hr, mul_comm])

/-- A sum over an axis of two entries that starts from the word of 0.0 is the sum of the two entries. -/
theorem sum_two_word (f : Fin 2 → EReal) :
    FloatOps.ofBits (F := Ideal) .f32 0x00000000#32 + ∑ k : Fin 2, f k = f 0 + f 1 := by
  rw [Ideal.ofBits_def, Ideal.ofBits_zero_f32, zero_add, Fin.sum_univ_two]

/-! ## The trunk -/

theorem v4_ix2 (b : Fin 524288) (h : Fin 128) :
    val_main_v4 (F := Ideal) x0 x1 x2 (ix2 b h)
      = affine (fun f => x1 (ix2 h f)) (row x0 b) (x2 (ix1 h)) := by
  rw [val_main_v4_apply, val_main_v1_apply, val_main_v3_apply, val_main_v2_apply]
  exact affine_of_dot _ _ _ _ _ _
    (fun k => congrArg x0 (funext fun a => match a with | ⟨0, _⟩ => rfl | ⟨1, _⟩ => rfl))
    (fun k => (val_main_v0_apply x1 _).trans
      (congrArg x1 (funext fun a => match a with | ⟨0, _⟩ => rfl | ⟨1, _⟩ => rfl)))
    (congrArg x2 (funext fun a => match a with | ⟨0, _⟩ => rfl))

theorem v5_ix2 (b : Fin 524288) (h : Fin 128) :
    val_main_v5 (F := Ideal) x0 x1 x2 (ix2 b h) = trunk P (row x0 b) h := by
  rw [val_main_v5_apply, val_main_call0_v5_apply, val_main_call0_v4_apply, val_main_call0_cst_0_apply,
    val_main_call0_v3_apply, val_main_call0_v2_apply, val_main_call0_cst_apply, val_main_call0_v1_apply,
    val_main_call0_v0_apply, v4_ix2]
  exact silu_word _

/-! ## The two heads, the nominal control and the gain -/

theorem v10_ix2 (b : Fin 524288) (j : Fin 32) :
    val_main_v10 (F := Ideal) x0 x1 x2 x3 x4 (ix2 b j)
      = affine (fun k => x3 (ix2 j k)) (trunk P (row x0 b)) (x4 (ix1 j)) := by
  rw [val_main_v10_apply, val_main_v7_apply, val_main_v9_apply, val_main_v8_apply]
  refine affine_of_dot _ _ _ _ _ _ (fun k => ?_) (fun k => ?_) ?_
  · rw [(show lidx_main_v7 (ix2 b j) k = ix2 b k from funext fun a => match a with | ⟨0, _⟩ => rfl | ⟨1, _⟩ => rfl)]
    exact v5_ix2 x0 x1 x2 x3 x4 x5 x6 x7 x8 x9 x10 b k
  · rw [val_main_v6_apply]
    exact congrArg x3 (show idx_main_v6 (ridx_main_v7 (ix2 b j) k) = ix2 j k from funext fun a => match a with | ⟨0, _⟩ => rfl | ⟨1, _⟩ => rfl)
  · exact congrArg x4 (show idx_main_v8 (idx_main_v9 (ix2 b j)) = ix1 j from funext fun a => match a with | ⟨0, _⟩ => rfl)

theorem v11_ix2 (b : Fin 524288) (j : Fin 32) :
    val_main_v11 (F := Ideal) x0 x1 x2 x3 x4 (ix2 b j) = headU P (row x0 b) j := by
  rw [val_main_v11_apply, val_main_call1_v5_apply, val_main_call1_v4_apply, val_main_call1_cst_0_apply,
    val_main_call1_v3_apply, val_main_call1_v2_apply, val_main_call1_cst_apply, val_main_call1_v1_apply,
    val_main_call1_v0_apply, v10_ix2 x0 x1 x2 x3 x4 x5 x6 x7 x8 x9 x10]
  exact silu_word _

theorem v16_ix2 (b : Fin 524288) (j : Fin 32) :
    val_main_v16 (F := Ideal) x0 x1 x2 x5 x6 (ix2 b j)
      = affine (fun k => x5 (ix2 j k)) (trunk P (row x0 b)) (x6 (ix1 j)) := by
  rw [val_main_v16_apply, val_main_v13_apply, val_main_v15_apply, val_main_v14_apply]
  refine affine_of_dot _ _ _ _ _ _ (fun k => ?_) (fun k => ?_) ?_
  · rw [(show lidx_main_v13 (ix2 b j) k = ix2 b k from funext fun a => match a with | ⟨0, _⟩ => rfl | ⟨1, _⟩ => rfl)]
    exact v5_ix2 x0 x1 x2 x3 x4 x5 x6 x7 x8 x9 x10 b k
  · rw [val_main_v12_apply]
    exact congrArg x5 (show idx_main_v12 (ridx_main_v13 (ix2 b j) k) = ix2 j k from funext fun a => match a with | ⟨0, _⟩ => rfl | ⟨1, _⟩ => rfl)
  · exact congrArg x6 (show idx_main_v14 (idx_main_v15 (ix2 b j)) = ix1 j from funext fun a => match a with | ⟨0, _⟩ => rfl)

theorem v17_ix2 (b : Fin 524288) (j : Fin 32) :
    val_main_v17 (F := Ideal) x0 x1 x2 x5 x6 (ix2 b j) = headA P (row x0 b) j := by
  rw [val_main_v17_apply, val_main_call2_v5_apply, val_main_call2_v4_apply, val_main_call2_cst_0_apply,
    val_main_call2_v3_apply, val_main_call2_v2_apply, val_main_call2_cst_apply, val_main_call2_v1_apply,
    val_main_call2_v0_apply, v16_ix2 x0 x1 x2 x3 x4 x5 x6 x7 x8 x9 x10]
  exact silu_word _

theorem v22_ix2 (b : Fin 524288) (c : Fin 2) :
    val_main_v22 (F := Ideal) x0 x1 x2 x3 x4 x7 x8 (ix2 b c)
      = unom P (row x0 b) c := by
  rw [val_main_v22_apply, val_main_v19_apply, val_main_v21_apply, val_main_v20_apply]
  refine affine_of_dot _ _ _ _ _ _ (fun k => ?_) (fun k => ?_) ?_
  · rw [(show lidx_main_v19 (ix2 b c) k = ix2 b k from funext fun a => match a with | ⟨0, _⟩ => rfl | ⟨1, _⟩ => rfl)]
    exact v11_ix2 x0 x1 x2 x3 x4 x5 x6 x7 x8 x9 x10 b k
  · rw [val_main_v18_apply]
    exact congrArg x7 (show idx_main_v18 (ridx_main_v19 (ix2 b c) k) = ix2 c k from funext fun a => match a with | ⟨0, _⟩ => rfl | ⟨1, _⟩ => rfl)
  · exact congrArg x8 (show idx_main_v20 (idx_main_v21 (ix2 b c)) = ix1 c from funext fun a => match a with | ⟨0, _⟩ => rfl)

/-- The gain's pre-activation, still a column: entry `(b, 0)`. -/
theorem v27_ix2 (b : Fin 524288) :
    val_main_v27 (F := Ideal) x0 x1 x2 x5 x6 x9 x10 (ix2 b (0 : Fin 1))
      = affine (fun k => x9 (ix2 (0 : Fin 1) k)) (headA P (row x0 b)) (x10 (ix1 (0 : Fin 1))) := by
  rw [val_main_v27_apply, val_main_v24_apply, val_main_v26_apply, val_main_v25_apply]
  refine affine_of_dot _ _ _ _ _ _ (fun k => ?_) (fun k => ?_) ?_
  · rw [(show lidx_main_v24 (ix2 b (0 : Fin 1)) k = ix2 b k from funext fun a => match a with | ⟨0, _⟩ => rfl | ⟨1, _⟩ => rfl)]
    exact v17_ix2 x0 x1 x2 x3 x4 x5 x6 x7 x8 x9 x10 b k
  · rw [val_main_v23_apply]
    exact congrArg x9 (show idx_main_v23 (ridx_main_v24 (ix2 b (0 : Fin 1)) k) = ix2 (0 : Fin 1) k from funext fun a => match a with | ⟨0, _⟩ => rfl | ⟨1, _⟩ => rfl)
  · exact congrArg x10 (show idx_main_v25 (idx_main_v26 (ix2 b (0 : Fin 1))) = ix1 (0 : Fin 1) from funext fun a => match a with | ⟨0, _⟩ => rfl)

theorem v36_ix1 (b : Fin 524288) :
    val_main_v36 (F := Ideal) x0 x1 x2 x5 x6 x9 x10 (ix1 b) = alpha P (row x0 b) := by
  rw [val_main_v36_apply, val_main_v35_apply, val_main_cst_1_apply, val_main_v34_apply, val_main_v33_apply,
    val_main_cst_0_apply, val_main_v32_apply, val_main_v31_apply, val_main_cst_apply, val_main_v30_apply,
    val_main_v29_apply, val_main_v28_apply]
  rw [show idx_main_v28 (ix1 b) = ix2 b (0 : Fin 1) from
    funext fun a => match a with | ⟨0, _⟩ => Fin.ext (Nat.div_one _) | ⟨1, _⟩ => rfl]
  rw [v27_ix2 x0 x1 x2 x3 x4 x5 x6 x7 x8 x9 x10, logistic_word]
  rfl

/-! ## The relative position and velocity: columns 6 to 9 of the observations -/

theorem v38_ix1 (b : Fin 524288) : val_main_v38 (F := Ideal) x0 (ix1 b) = row x0 b 6 := by
  rw [val_main_v38_apply, val_main_v37_apply]
  exact congrArg x0 (show idx_main_v37 (idx_main_v38 (ix1 b)) = ix2 b (6 : Fin 10) from
    funext fun a => match a with | ⟨0, _⟩ => Fin.ext (Nat.div_one _) | ⟨1, _⟩ => rfl)

theorem v40_ix1 (b : Fin 524288) : val_main_v40 (F := Ideal) x0 (ix1 b) = row x0 b 7 := by
  rw [val_main_v40_apply, val_main_v39_apply]
  exact congrArg x0 (show idx_main_v39 (idx_main_v40 (ix1 b)) = ix2 b (7 : Fin 10) from
    funext fun a => match a with | ⟨0, _⟩ => Fin.ext (Nat.div_one _) | ⟨1, _⟩ => rfl)

theorem v42_ix1 (b : Fin 524288) : val_main_v42 (F := Ideal) x0 (ix1 b) = row x0 b 8 := by
  rw [val_main_v42_apply, val_main_v41_apply]
  exact congrArg x0 (show idx_main_v41 (idx_main_v42 (ix1 b)) = ix2 b (8 : Fin 10) from
    funext fun a => match a with | ⟨0, _⟩ => Fin.ext (Nat.div_one _) | ⟨1, _⟩ => rfl)

theorem v44_ix1 (b : Fin 524288) : val_main_v44 (F := Ideal) x0 (ix1 b) = row x0 b 9 := by
  rw [val_main_v44_apply, val_main_v43_apply]
  exact congrArg x0 (show idx_main_v43 (idx_main_v44 (ix1 b)) = ix2 b (9 : Fin 10) from
    funext fun a => match a with | ⟨0, _⟩ => Fin.ext (Nat.div_one _) | ⟨1, _⟩ => rfl)

/-! ## The barrier, the half-plane and its normal -/

theorem v49_ix1 (b : Fin 524288) : val_main_v49 (F := Ideal) x0 (ix1 b) = barrier (row x0 b) := by
  rw [val_main_v49_apply, val_main_v47_apply, val_main_v45_apply, val_main_v46_apply, val_main_v48_apply,
    val_main_cst_2_apply, v38_ix1, v40_ix1]
  rfl

theorem v54_ix1 (b : Fin 524288) : val_main_v54 (F := Ideal) x0 (ix1 b) = lf (row x0 b) := by
  rw [val_main_v54_apply, val_main_v53_apply, val_main_cst_3_apply, val_main_v52_apply, val_main_v50_apply,
    val_main_v51_apply, v38_ix1, v40_ix1, v42_ix1, v44_ix1]
  rfl

theorem v56_ix1 (b : Fin 524288) : val_main_v56 (F := Ideal) x0 (ix1 b) = gx (row x0 b) := by
  rw [val_main_v56_apply, val_main_v55_apply, val_main_cst_4_apply, v38_ix1]
  rfl

theorem v58_ix1 (b : Fin 524288) : val_main_v58 (F := Ideal) x0 (ix1 b) = gy (row x0 b) := by
  rw [val_main_v58_apply, val_main_v57_apply, val_main_cst_5_apply, v40_ix1]
  rfl

theorem v63_ix1 (b : Fin 524288) :
    val_main_v63 (F := Ideal) x0 x1 x2 x5 x6 x9 x10 (ix1 b) = hval P (row x0 b) := by
  rw [val_main_v63_apply, val_main_v62_apply, v54_ix1, v36_ix1 x0 x1 x2 x3 x4 x5 x6 x7 x8 x9 x10, v49_ix1]
  rfl

/-- The normal is its two components joined along the second axis: entry `(b, 0)` is the first
    column's entry `(b, 0)`. -/
theorem v61_zero (b : Fin 524288) :
    val_main_v61 (F := Ideal) x0 (ix2 b (0 : Fin 2)) = gx (row x0 b) := by
  unfold val_main_v61
  rw [concatenate_pair_apply_left (1 : Fin 2) (val_main_v59 (F := Ideal) x0) (val_main_v60 (F := Ideal) x0)
    Gen.concatenates_S524288x1_S524288x1_S524288x2_d1 (ix2 b (0 : Fin 2)) rfl (ix2 b (0 : Fin 1))
    (fun d => match d with | ⟨0, _⟩ => rfl | ⟨1, _⟩ => rfl)]
  rw [val_main_v59_apply]
  rw [(show idx_main_v59 (ix2 b (0 : Fin 1)) = ix1 b from funext fun a => match a with | ⟨0, _⟩ => rfl)]
  exact v56_ix1 x0 b

/-- Entry `(b, 1)` of the normal is the second column's entry `(b, 0)`. -/
theorem v61_one (b : Fin 524288) :
    val_main_v61 (F := Ideal) x0 (ix2 b (1 : Fin 2)) = gy (row x0 b) := by
  unfold val_main_v61
  rw [concatenate_pair_apply_right (1 : Fin 2) (val_main_v59 (F := Ideal) x0) (val_main_v60 (F := Ideal) x0)
    Gen.concatenates_S524288x1_S524288x1_S524288x2_d1 (ix2 b (1 : Fin 2)) rfl rfl (ix2 b (0 : Fin 1))
    (fun d => match d with | ⟨0, _⟩ => fun _ => rfl | ⟨1, _⟩ => fun hne => absurd rfl hne) rfl]
  rw [val_main_v60_apply]
  rw [(show idx_main_v60 (ix2 b (0 : Fin 1)) = ix1 b from funext fun a => match a with | ⟨0, _⟩ => rfl)]
  exact v58_ix1 x0 b

theorem v61_ix2 (b : Fin 524288) (c : Fin 2) :
    val_main_v61 (F := Ideal) x0 (ix2 b c) = gvec (row x0 b) c := by
  match c with
  | ⟨0, _⟩ => exact v61_zero x0 b
  | ⟨1, _⟩ => exact v61_one x0 b

/-! ## The squared length, the violation, the multiplier and the projection -/

theorem v65_ix1 (b : Fin 524288) : val_main_v65 (F := Ideal) x0 (ix1 b) = gg (row x0 b) := by
  rw [val_main_v65_apply, val_main_cst_6_apply]
  rw [show (fun k : Fin 2 => val_main_v64 (F := Ideal) x0 (idx_main_v65 (ix1 b) k))
      = fun k => val_main_v61 (F := Ideal) x0 (ix2 b k) * val_main_v61 (F := Ideal) x0 (ix2 b k) from
    funext fun k => (congrArg (val_main_v64 (F := Ideal) x0) (show idx_main_v65 (ix1 b) k = ix2 b k from funext fun a => match a with | ⟨0, _⟩ => rfl | ⟨1, _⟩ => rfl)).trans
      (val_main_v64_apply x0 (ix2 b k))]
  rw [sum_two_word, v61_zero, v61_one]
  rfl

theorem v67_ix1 (b : Fin 524288) :
    val_main_v67 (F := Ideal) x0 x1 x2 x3 x4 x7 x8 (ix1 b)
      = gx (row x0 b) * unom P (row x0 b) 0 + gy (row x0 b) * unom P (row x0 b) 1 := by
  rw [val_main_v67_apply, val_main_cst_7_apply]
  rw [show (fun k : Fin 2 => val_main_v66 (F := Ideal) x0 x1 x2 x3 x4 x7 x8 (idx_main_v67 (ix1 b) k))
      = fun k => val_main_v61 (F := Ideal) x0 (ix2 b k) * val_main_v22 (F := Ideal) x0 x1 x2 x3 x4 x7 x8 (ix2 b k) from
    funext fun k => (congrArg (val_main_v66 (F := Ideal) x0 x1 x2 x3 x4 x7 x8) (show idx_main_v67 (ix1 b) k = ix2 b k from funext fun a => match a with | ⟨0, _⟩ => rfl | ⟨1, _⟩ => rfl)).trans
      (val_main_v66_apply x0 x1 x2 x3 x4 x7 x8 (ix2 b k))]
  rw [sum_two_word, v61_zero, v61_one, v22_ix2 x0 x1 x2 x3 x4 x5 x6 x7 x8 x9 x10, v22_ix2 x0 x1 x2 x3 x4 x5 x6 x7 x8 x9 x10]

theorem v68_ix1 (b : Fin 524288) :
    val_main_v68 (F := Ideal) x0 x1 x2 x3 x4 x5 x6 x7 x8 x9 x10 (ix1 b) = viol P (row x0 b) := by
  rw [val_main_v68_apply, v67_ix1 x0 x1 x2 x3 x4 x5 x6 x7 x8 x9 x10, v63_ix1 x0 x1 x2 x3 x4 x5 x6 x7 x8 x9 x10]
  rfl

theorem v75_ix1 (b : Fin 524288) :
    val_main_v75 (F := Ideal) x0 x1 x2 x3 x4 x5 x6 x7 x8 x9 x10 (ix1 b) = lam P (row x0 b) := by
  rw [val_main_v75_apply, val_main_v70_apply, val_main_v69_apply, val_main_cst_8_apply, val_main_v74_apply,
    val_main_v71_apply, val_main_call3_v0_apply, val_main_call3_cst_apply, val_main_v73_apply,
    val_main_v72_apply, val_main_cst_9_apply, val_main_call4_v1_apply, val_main_call4_v0_apply,
    val_main_cst_10_apply, v65_ix1, v68_ix1 x0 x1 x2 x3 x4 x5 x6 x7 x8 x9 x10]
  rfl

theorem v79_ix2 (b : Fin 524288) (c : Fin 2) :
    val_main_v79 (F := Ideal) x0 x1 x2 x3 x4 x5 x6 x7 x8 x9 x10 (ix2 b c) = out P (row x0 b) c := by
  rw [val_main_v79_apply, val_main_v78_apply, val_main_v77_apply, val_main_v76_apply, v22_ix2 x0 x1 x2 x3 x4 x5 x6 x7 x8 x9 x10, v61_ix2]
  rw [(show idx_main_v76 (idx_main_v77 (ix2 b c)) = ix1 b from funext fun a => match a with | ⟨0, _⟩ => rfl)]
  rw [v75_ix1 x0 x1 x2 x3 x4 x5 x6 x7 x8 x9 x10]
  rfl

/-- THE REFERENCE'S RESULT is the specification's, entry by entry. -/
theorem ref_result
    (x0 : (⟨S524288x10, .f32⟩ : BufTy).Contents (Elt Ideal)) (x1 : (⟨S128x10, .f32⟩ : BufTy).Contents (Elt Ideal))
    (x2 : (⟨S128, .f32⟩ : BufTy).Contents (Elt Ideal)) (x3 : (⟨S32x128, .f32⟩ : BufTy).Contents (Elt Ideal))
    (x4 : (⟨S32, .f32⟩ : BufTy).Contents (Elt Ideal)) (x5 : (⟨S32x128, .f32⟩ : BufTy).Contents (Elt Ideal))
    (x6 : (⟨S32, .f32⟩ : BufTy).Contents (Elt Ideal)) (x7 : (⟨S2x32, .f32⟩ : BufTy).Contents (Elt Ideal))
    (x8 : (⟨S2, .f32⟩ : BufTy).Contents (Elt Ideal)) (x9 : (⟨S1x32, .f32⟩ : BufTy).Contents (Elt Ideal))
    (x10 : (⟨S1, .f32⟩ : BufTy).Contents (Elt Ideal)) :
    Cert.ReferenceIdeal.Read.val_main_v79 (F := Ideal) x0 x1 x2 x3 x4 x5 x6 x7 x8 x9 x10
      = Cert.BarrierQP.result x0 (Cert.BarrierQP.paramsOf x1 x2 x3 x4 x5 x6 x7 x8 x9 x10) := by
  funext i
  obtain ⟨b, c, rfl⟩ : ∃ (b : Fin 524288) (c : Fin 2), i = ix2 b c := ⟨i 0, i 1, eq_ix2 i⟩
  rw [v79_ix2 x0 x1 x2 x3 x4 x5 x6 x7 x8 x9 x10 b c, result_ix2]

end Cert.ReferenceIdeal.RefValue

end
-- ==== Proof.lean ====
/-
  The kernel — a small network (a shared trunk of 128 hidden values, two heads of 32, `silu` after every layer)
  followed, per sample, by the closed-form projection of the nominal control on one half-plane — against its jnp
  reference, on the extended reals.

  The kernel works on the transposed observations, 8192 samples to a grid point, with the weights `[out, in]` applied
  from the left and the biases as columns; the reference works on the rows, with the transposed weights applied from
  the right. Entry by entry both are the same sums of products (the factors commuted), the same `z · σ(z)` — the
  kernel's one logistic operation is, by definition, the quotient `1 / (1 + e^(-z))` the reference spells out —, and
  the same projection `u - λ g`: the reference's sums over the two components of `g` are the kernel's two-term sums.
  Both results are stated as ONE function of the argument arrays (`Cert.BarrierQP.result`); no law used needs the
  inputs to be finite, so the precondition is never opened. The idealization rewrote nothing, so `preserves` holds
  trivially; the three frames are the generated frame certificates and the reference's generated run.
-/
import proofs.«110257_j12807592476726_2_alg».proof.Defs
import proofs.«110257_j12807592476726_2_alg».proof.Proof.Gen.Kernel
import proofs.«110257_j12807592476726_2_alg».proof.Proof.Gen.Kernel.Skeleton
import proofs.«110257_j12807592476726_2_alg».proof.Proof.Gen.Kernel.Launch
import proofs.«110257_j12807592476726_2_alg».proof.Proof.Gen.Kernel.Points
import proofs.«110257_j12807592476726_2_alg».proof.Proof.Gen.Kernel.Frame
import proofs.«110257_j12807592476726_2_alg».proof.Proof.Gen.KernelIdeal
import proofs.«110257_j12807592476726_2_alg».proof.Proof.Gen.KernelIdeal.Skeleton
import proofs.«110257_j12807592476726_2_alg».proof.Proof.Gen.KernelIdeal.Launch
import proofs.«110257_j12807592476726_2_alg».proof.Proof.Gen.KernelIdeal.Points
import proofs.«110257_j12807592476726_2_alg».proof.Proof.Gen.KernelIdeal.Frame
import proofs.«110257_j12807592476726_2_alg».proof.Proof.Gen.ReferenceIdeal
import proofs.«110257_j12807592476726_2_alg».proof.Proof.Gen.Pre_finite_inputs
import proofs.«110257_j12807592476726_2_alg».proof.Proof.Gen.ReferenceIdeal.Run
import proofs.«110257_j12807592476726_2_alg».proof.Proof.Gen.ReferenceIdeal.Read
import proofs.«110257_j12807592476726_2_alg».proof.Proof.KernelArray
import proofs.«110257_j12807592476726_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the projected controls of the argument arrays. -/
theorem algebraic : Cert.algebraic_KernelIdeal_ReferenceIdeal := by
  intro m ρ m' ρ' _ hagree
  refine ⟨fun c => Cert.BarrierQP.result (m ((c.tc : Thread Cert.KernelIdeal.nD Cert.KernelIdeal.τ).loc Cert.KernelIdeal.main_arg0)) (Cert.BarrierQP.paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v79_eq, Cert.ReferenceIdeal.RefValue.ref_result, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
